-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v17)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v36) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x2048x2048 : Shape := ⟨3, ![2, 2048, 2048]⟩
abbrev S2x2048 : Shape := ⟨2, ![2, 2048]⟩
abbrev S2048 : Shape := ⟨1, ![2048]⟩
abbrev S2048x2048 : Shape := ⟨2, ![2048, 2048]⟩
abbrev S10944x2048 : Shape := ⟨2, ![10944, 2048]⟩
abbrev S2048x10944 : Shape := ⟨2, ![2048, 10944]⟩
abbrev S_ : Shape := ⟨0, ![]⟩

class Facts : Prop where
  bcast_S_S2x2048x2048 : S_.BroadcastsInDim S2x2048x2048 (![] : Fin 0 → Fin S2x2048x2048.rank)
  reducesTo_S2x2048x2048_S_d0_1_2 : S2x2048x2048.ReducesTo [0, 1, 2] S_
  h_S_ : 0 < S_.numel
  bcast_S_S2048 : S_.BroadcastsInDim S2048 (![] : Fin 0 → Fin S2048.rank)
  reducesTo_S2048_S_d0 : S2048.ReducesTo [0] S_
  bcast_S_S2048x2048 : S_.BroadcastsInDim S2048x2048 (![] : Fin 0 → Fin S2048x2048.rank)
  reducesTo_S2048x2048_S_d0_1 : S2048x2048.ReducesTo [0, 1] S_
  bcast_S_S10944x2048 : S_.BroadcastsInDim S10944x2048 (![] : Fin 0 → Fin S10944x2048.rank)
  reducesTo_S10944x2048_S_d0_1 : S10944x2048.ReducesTo [0, 1] S_
  bcast_S_S2048x10944 : S_.BroadcastsInDim S2048x10944 (![] : Fin 0 → Fin S2048x10944.rank)
  reducesTo_S2048x10944_S_d0_1 : S2048x10944.ReducesTo [0, 1] S_

variable [Facts]

def fn_part2 {F : FTy → Type} [FloatOps F] (main_arg8 : FVec F S2048x10944 .f32) (main_v33 : IVec S_ 1) : IVec S_ 1 :=
  let main_v34 : FVec F S2048x10944 .f32 := Host.absf main_arg8
  let main_cst_12 : FVec F S_ .f32 := constant S_ .f32 0x7F800000#32
  let main_v35 : FVec F S2048x10944 .f32 := broadcastInDim S2048x10944 ![] bcast_S_S2048x10944 main_cst_12
  let main_v36 : IVec S2048x10944 1 := cmpf .olt main_v34 main_v35
  let main_c_13 : IVec S_ 1 := constantI S_ 1 1#1
  let main_v37 : IVec S_ 1 := (fun x v => Host.reduce IntOp.andi x v reducesTo_S2048x10944_S_d0_1 h_S_) main_v36 main_c_13
  let main_v38 : IVec S_ 1 := andi main_v33 main_v37
  main_v38

def fn_part1 {F : FTy → Type} [FloatOps F] (main_arg5 : FVec F S2048x2048 .f32) (main_arg6 : FVec F S10944x2048 .f32) (main_arg7 : FVec F S10944x2048 .f32) (main_arg8 : FVec F S2048x10944 .f32) (main_v13 : IVec S_ 1) (main_v16 : IVec S2048x2048 1) : IVec S_ 1 :=
  let main_c_5 : IVec S_ 1 := constantI S_ 1 1#1
  let main_v17 : IVec S_ 1 := (fun x v => Host.reduce IntOp.andi x v reducesTo_S2048x2048_S_d0_1 h_S_) main_v16 main_c_5
  let main_v18 : IVec S_ 1 := andi main_v13 main_v17
  let main_v19 : FVec F S2048x2048 .f32 := Host.absf main_arg5
  let main_cst_6 : FVec F S_ .f32 := constant S_ .f32 0x7F800000#32
  let main_v20 : FVec F S2048x2048 .f32 := broadcastInDim S2048x2048 ![] bcast_S_S2048x2048 main_cst_6
  let main_v21 : IVec S2048x2048 1 := cmpf .olt main_v19 main_v20
  let main_c_7 : IVec S_ 1 := constantI S_ 1 1#1
  let main_v22 : IVec S_ 1 := (fun x v => Host.reduce IntOp.andi x v reducesTo_S2048x2048_S_d0_1 h_S_) main_v21 main_c_7
  let main_v23 : IVec S_ 1 := andi main_v18 main_v22
  let main_v24 : FVec F S10944x2048 .f32 := Host.absf main_arg6
  let main_cst_8 : FVec F S_ .f32 := constant S_ .f32 0x7F800000#32
  let main_v25 : FVec F S10944x2048 .f32 := broadcastInDim S10944x2048 ![] bcast_S_S10944x2048 main_cst_8
  let main_v26 : IVec S10944x2048 1 := cmpf .olt main_v24 main_v25
  let main_c_9 : IVec S_ 1 := constantI S_ 1 1#1
  let main_v27 : IVec S_ 1 := (fun x v => Host.reduce IntOp.andi x v reducesTo_S10944x2048_S_d0_1 h_S_) main_v26 main_c_9
  let main_v28 : IVec S_ 1 := andi main_v23 main_v27
  let main_v29 : FVec F S10944x2048 .f32 := Host.absf main_arg7
  let main_cst_10 : FVec F S_ .f32 := constant S_ .f32 0x7F800000#32
  let main_v30 : FVec F S10944x2048 .f32 := broadcastInDim S10944x2048 ![] bcast_S_S10944x2048 main_cst_10
  let main_v31 : IVec S10944x2048 1 := cmpf .olt main_v29 main_v30
  let main_c_11 : IVec S_ 1 := constantI S_ 1 1#1
  let main_v32 : IVec S_ 1 := (fun x v => Host.reduce IntOp.andi x v reducesTo_S10944x2048_S_d0_1 h_S_) main_v31 main_c_11
  let main_v33 : IVec S_ 1 := andi main_v28 main_v32
  fn_part2 (F := F) main_arg8 main_v33

def fn {F : FTy → Type} [FloatOps F] (main_arg0 : FVec F S2x2048x2048 .f32) (main_arg1 : IVec S2x2048 32) (main_arg2 : FVec F S2048 .f32) (main_arg3 : FVec F S2048 .f32) (main_arg4 : FVec F S2048x2048 .f32) (main_arg5 : FVec F S2048x2048 .f32) (main_arg6 : FVec F S10944x2048 .f32) (main_arg7 : FVec F S10944x2048 .f32) (main_arg8 : FVec F S2048x10944 .f32) : IVec S_ 1 :=
  let main_v0 : FVec F S2x2048x2048 .f32 := Host.absf main_arg0
  let main_cst : FVec F S_ .f32 := constant S_ .f32 0x7F800000#32
  let main_v1 : FVec F S2x2048x2048 .f32 := broadcastInDim S2x2048x2048 ![] bcast_S_S2x2048x2048 main_cst
  let main_v2 : IVec S2x2048x2048 1 := cmpf .olt main_v0 main_v1
  let main_c : IVec S_ 1 := constantI S_ 1 1#1
  let main_v3 : IVec S_ 1 := (fun x v => Host.reduce IntOp.andi x v reducesTo_S2x2048x2048_S_d0_1_2 h_S_) main_v2 main_c
  let main_v4 : FVec F S2048 .f32 := Host.absf main_arg2
  let main_cst_0 : FVec F S_ .f32 := constant S_ .f32 0x7F800000#32
  let main_v5 : FVec F S2048 .f32 := broadcastInDim S2048 ![] bcast_S_S2048 main_cst_0
  let main_v6 : IVec S2048 1 := cmpf .olt main_v4 main_v5
  let main_c_1 : IVec S_ 1 := constantI S_ 1 1#1
  let main_v7 : IVec S_ 1 := (fun x v => Host.reduce IntOp.andi x v reducesTo_S2048_S_d0 h_S_) main_v6 main_c_1
  let main_v8 : IVec S_ 1 := andi main_v3 main_v7
  let main_v9 : FVec F S2048 .f32 := Host.absf main_arg3
  let main_cst_2 : FVec F S_ .f32 := constant S_ .f32 0x7F800000#32
  let main_v10 : FVec F S2048 .f32 := broadcastInDim S2048 ![] bcast_S_S2048 main_cst_2
  let main_v11 : IVec S2048 1 := cmpf .olt main_v9 main_v10
  let main_c_3 : IVec S_ 1 := constantI S_ 1 1#1
  let main_v12 : IVec S_ 1 := (fun x v => Host.reduce IntOp.andi x v reducesTo_S2048_S_d0 h_S_) main_v11 main_c_3
  let main_v13 : IVec S_ 1 := andi main_v8 main_v12
  let main_v14 : FVec F S2048x2048 .f32 := Host.absf main_arg4
  let main_cst_4 : FVec F S_ .f32 := constant S_ .f32 0x7F800000#32
  let main_v15 : FVec F S2048x2048 .f32 := broadcastInDim S2048x2048 ![] bcast_S_S2048x2048 main_cst_4
  let main_v16 : IVec S2048x2048 1 := cmpf .olt main_v14 main_v15
  fn_part1 (F := F) main_arg5 main_arg6 main_arg7 main_arg8 main_v13 main_v16
-- ==== Kernel.lean ====
abbrev S2x2048x2048 : Shape := ⟨3, ![2, 2048, 2048]⟩
abbrev S2x2048 : Shape := ⟨2, ![2, 2048]⟩
abbrev S2048 : Shape := ⟨1, ![2048]⟩
abbrev S2048x2048 : Shape := ⟨2, ![2048, 2048]⟩
abbrev S10944x2048 : Shape := ⟨2, ![10944, 2048]⟩
abbrev S2048x10944 : Shape := ⟨2, ![2048, 10944]⟩
abbrev S4096x2048 : Shape := ⟨2, ![4096, 2048]⟩
abbrev S_ : Shape := ⟨0, ![]⟩
abbrev S11264x2048 : Shape := ⟨2, ![11264, 2048]⟩
abbrev S2048x11264 : Shape := ⟨2, ![2048, 11264]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩
abbrev S4096x11264 : Shape := ⟨2, ![4096, 11264]⟩
abbrev S512x2048 : Shape := ⟨2, ![512, 2048]⟩
abbrev S1024x2048 : Shape := ⟨2, ![1024, 2048]⟩
abbrev S512x1024 : Shape := ⟨2, ![512, 1024]⟩
abbrev S512x11264 : Shape := ⟨2, ![512, 11264]⟩
abbrev S256x11264 : Shape := ⟨2, ![256, 11264]⟩
abbrev S512x256 : Shape := ⟨2, ![512, 256]⟩

abbrev nBuf : Space → Nat
  | .hbm => 33
  | .vmem => 38
  | .smem => 0
  | _ => 0

abbrev bufTy : (tb : Table) → Fin (tcTables nBuf tb) → BufTy
  | .hbm, ⟨0, _⟩ => ⟨S2x2048x2048, .f32⟩
  | .hbm, ⟨1, _⟩ => ⟨S2x2048, .i32⟩
  | .hbm, ⟨2, _⟩ => ⟨S2048, .f32⟩
  | .hbm, ⟨3, _⟩ => ⟨S2048, .f32⟩
  | .hbm, ⟨4, _⟩ => ⟨S2048x2048, .f32⟩
  | .hbm, ⟨5, _⟩ => ⟨S2048x2048, .f32⟩
  | .hbm, ⟨6, _⟩ => ⟨S10944x2048, .f32⟩
  | .hbm, ⟨7, _⟩ => ⟨S10944x2048, .f32⟩
  | .hbm, ⟨8, _⟩ => ⟨S2048x10944, .f32⟩
  | .hbm, ⟨9, _⟩ => ⟨S4096x2048, .f32⟩
  | .hbm, ⟨10, _⟩ => ⟨S2048x2048, .bf16⟩
  | .hbm, ⟨11, _⟩ => ⟨S2048x2048, .bf16⟩
  | .hbm, ⟨12, _⟩ => ⟨S_, .i32⟩
  | .hbm, ⟨13, _⟩ => ⟨S_, .f32⟩
  | .hbm, ⟨14, _⟩ => ⟨S11264x2048, .f32⟩
  | .hbm, ⟨15, _⟩ => ⟨S11264x2048, .bf16⟩
  | .hbm, ⟨16, _⟩ => ⟨S_, .i32⟩
  | .hbm, ⟨17, _⟩ => ⟨S_, .f32⟩
  | .hbm, ⟨18, _⟩ => ⟨S11264x2048, .f32⟩
  | .hbm, ⟨19, _⟩ => ⟨S11264x2048, .bf16⟩
  | .hbm, ⟨20, _⟩ => ⟨S_, .i32⟩
  | .hbm, ⟨21, _⟩ => ⟨S_, .f32⟩
  | .hbm, ⟨22, _⟩ => ⟨S2048x11264, .f32⟩
  | .hbm, ⟨23, _⟩ => ⟨S2048x11264, .bf16⟩
  | .hbm, ⟨24, _⟩ => ⟨S1x2048, .f32⟩
  | .hbm, ⟨25, _⟩ => ⟨S4096x2048, .bf16⟩
  | .hbm, ⟨26, _⟩ => ⟨S4096x2048, .bf16⟩
  | .hbm, ⟨27, _⟩ => ⟨S4096x2048, .f32⟩
  | .hbm, ⟨28, _⟩ => ⟨S1x2048, .f32⟩
  | .hbm, ⟨29, _⟩ => ⟨S4096x2048, .bf16⟩
  | .hbm, ⟨30, _⟩ => ⟨S4096x11264, .bf16⟩
  | .hbm, ⟨31, _⟩ => ⟨S4096x2048, .f32⟩
  | .hbm, ⟨32, _⟩ => ⟨S2x2048x2048, .f32⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S256x2048, .bf16⟩
  | .local _ .vmem, ⟨4, _⟩ => ⟨S256x2048, .bf16⟩
  | .local _ .vmem, ⟨5, _⟩ => ⟨S256x2048, .bf16⟩
  | .local _ .vmem, ⟨6, _⟩ => ⟨S256x2048, .bf16⟩
  | .local _ .vmem, ⟨7, _⟩ => ⟨S2048x2048, .bf16⟩
  | .local _ .vmem, ⟨8, _⟩ => ⟨S256x2048, .bf16⟩
  | .local _ .vmem, ⟨9, _⟩ => ⟨S256x2048, .bf16⟩
  | .local _ .vmem, ⟨10, _⟩ => ⟨S256x2048, .bf16⟩
  | .local _ .vmem, ⟨11, _⟩ => ⟨S256x2048, .bf16⟩
  | .local _ .vmem, ⟨12, _⟩ => ⟨S2048x2048, .bf16⟩
  | .local _ .vmem, ⟨13, _⟩ => ⟨S256x2048, .f32⟩
  | .local _ .vmem, ⟨14, _⟩ => ⟨S256x2048, .f32⟩
  | .local _ .vmem, ⟨15, _⟩ => ⟨S256x2048, .f32⟩
  | .local _ .vmem, ⟨16, _⟩ => ⟨S256x2048, .f32⟩
  | .local _ .vmem, ⟨17, _⟩ => ⟨S256x2048, .f32⟩
  | .local _ .vmem, ⟨18, _⟩ => ⟨S256x2048, .f32⟩
  | .local _ .vmem, ⟨19, _⟩ => ⟨S1x2048, .f32⟩
  | .local _ .vmem, ⟨20, _⟩ => ⟨S256x2048, .bf16⟩
  | .local _ .vmem, ⟨21, _⟩ => ⟨S256x2048, .bf16⟩
  | .local _ .vmem, ⟨22, _⟩ => ⟨S512x2048, .bf16⟩
  | .local _ .vmem, ⟨23, _⟩ => ⟨S512x2048, .bf16⟩
  | .local _ .vmem, ⟨24, _⟩ => ⟨S1024x2048, .bf16⟩
  | .local _ .vmem, ⟨25, _⟩ => ⟨S1024x2048, .bf16⟩
  | .local _ .vmem, ⟨26, _⟩ => ⟨S1024x2048, .bf16⟩
  | .local _ .vmem, ⟨27, _⟩ => ⟨S1024x2048, .bf16⟩
  | .local _ .vmem, ⟨28, _⟩ => ⟨S512x1024, .bf16⟩
  | .local _ .vmem, ⟨29, _⟩ => ⟨S512x1024, .bf16⟩
  | .local _ .vmem, ⟨30, _⟩ => ⟨S512x11264, .bf16⟩
  | .local _ .vmem, ⟨31, _⟩ => ⟨S512x11264, .bf16⟩
  | .local _ .vmem, ⟨32, _⟩ => ⟨S256x11264, .bf16⟩
  | .local _ .vmem, ⟨33, _⟩ => ⟨S256x11264, .bf16⟩
  | .local _ .vmem, ⟨34, _⟩ => ⟨S512x256, .f32⟩
  | .local _ .vmem, ⟨35, _⟩ => ⟨S512x256, .f32⟩
  | .local _ .vmem, ⟨36, _⟩ => ⟨S512x256, .f32⟩
  | .local _ .vmem, ⟨37, _⟩ => ⟨S512x256, .f32⟩
  | _, _ => ⟨S2x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | _, _ => false

abbrev semScoped : Fin 0 → Bool
  | ⟨_, h⟩ => absurd h (Nat.not_lt_zero _)

abbrev dmaSemScoped : Fin 38 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | _ => false

abbrev sig : RefSig :=
  ofTc nBuf bufTy 0 38 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_c : Ref sig .tc := ⟨.hbm, 12, rfl⟩
abbrev main_call0_v0 : Ref sig .tc := ⟨.hbm, 13, rfl⟩
abbrev main_v3 : Ref sig .tc := ⟨.hbm, 14, rfl⟩
abbrev main_v4 : Ref sig .tc := ⟨.hbm, 15, rfl⟩
abbrev main_c_0 : Ref sig .tc := ⟨.hbm, 16, rfl⟩
abbrev main_call1_v0 : Ref sig .tc := ⟨.hbm, 17, rfl⟩
abbrev main_v5 : Ref sig .tc := ⟨.hbm, 18, rfl⟩
abbrev main_v6 : Ref sig .tc := ⟨.hbm, 19, rfl⟩
abbrev main_c_1 : Ref sig .tc := ⟨.hbm, 20, rfl⟩
abbrev main_call2_v0 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc2_stg3_0 : Ref sig .tc := ⟨.vmem, 15, rfl⟩
abbrev cc2_stg3_1 : Ref sig .tc := ⟨.vmem, 16, rfl⟩
abbrev cc3_stg0_0 : Ref sig .tc := ⟨.vmem, 17, rfl⟩
abbrev cc3_stg0_1 : Ref sig .tc := ⟨.vmem, 18, rfl⟩
abbrev cc3_stg1_0 : Ref sig .tc := ⟨.vmem, 19, rfl⟩
abbrev cc3_stg2_0 : Ref sig .tc := ⟨.vmem, 20, rfl⟩
abbrev cc3_stg2_1 : Ref sig .tc := ⟨.vmem, 21, rfl⟩
abbrev cc4_stg0_0 : Ref sig .tc := ⟨.vmem, 22, rfl⟩
abbrev cc4_stg0_1 : Ref sig .tc := ⟨.vmem, 23, rfl⟩
abbrev cc4_stg1_0 : Ref sig .tc := ⟨.vmem, 24, rfl⟩
abbrev cc4_stg1_1 : Ref sig .tc := ⟨.vmem, 25, rfl⟩
abbrev cc4_stg2_0 : Ref sig .tc := ⟨.vmem, 26, rfl⟩
abbrev cc4_stg2_1 : Ref sig .tc := ⟨.vmem, 27, rfl⟩
abbrev cc4_stg3_0 : Ref sig .tc := ⟨.vmem, 28, rfl⟩
abbrev cc4_stg3_1 : Ref sig .tc := ⟨.vmem, 29, rfl⟩
abbrev cc5_stg0_0 : Ref sig .tc := ⟨.vmem, 30, rfl⟩
abbrev cc5_stg0_1 : Ref sig .tc := ⟨.vmem, 31, rfl⟩
abbrev cc5_stg1_0 : Ref sig .tc := ⟨.vmem, 32, rfl⟩
abbrev cc5_stg1_1 : Ref sig .tc := ⟨.vmem, 33, rfl⟩
abbrev cc5_stg2_0 : Ref sig .tc := ⟨.vmem, 34, rfl⟩
abbrev cc5_stg2_1 : Ref sig .tc := ⟨.vmem, 35, rfl⟩
abbrev cc5_stg3_0 : Ref sig .tc := ⟨.vmem, 36, rfl⟩
abbrev cc5_stg3_1 : Ref sig .tc := ⟨.vmem, 37, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc2_sem3_0 : DmaSem sig := 15
abbrev cc2_sem3_1 : DmaSem sig := 16
abbrev cc3_sem0_0 : DmaSem sig := 17
abbrev cc3_sem0_1 : DmaSem sig := 18
abbrev cc3_sem1_0 : DmaSem sig := 19
abbrev cc3_sem2_0 : DmaSem sig := 20
abbrev cc3_sem2_1 : DmaSem sig := 21
abbrev cc4_sem0_0 : DmaSem sig := 22
abbrev cc4_sem0_1 : DmaSem sig := 23
abbrev cc4_sem1_0 : DmaSem sig := 24
abbrev cc4_sem1_1 : DmaSem sig := 25
abbrev cc4_sem2_0 : DmaSem sig := 26
abbrev cc4_sem2_1 : DmaSem sig := 27
abbrev cc4_sem3_0 : DmaSem sig := 28
abbrev cc4_sem3_1 : DmaSem sig := 29
abbrev cc5_sem0_0 : DmaSem sig := 30
abbrev cc5_sem0_1 : DmaSem sig := 31
abbrev cc5_sem1_0 : DmaSem sig := 32
abbrev cc5_sem1_1 : DmaSem sig := 33
abbrev cc5_sem2_0 : DmaSem sig := 34
abbrev cc5_sem2_1 : DmaSem sig := 35
abbrev cc5_sem3_0 : DmaSem sig := 36
abbrev cc5_sem3_1 : DmaSem sig := 37

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨2, ![16, 1], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 2 → Memref sig .tc .vmem S256x2048 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 1 → Memref sig .tc .vmem S2048x2048 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, true]

abbrev stage1_2 : Fin 2 → Memref sig .tc .vmem S256x2048 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev grid2 : Pipeline.Grid := ⟨2, ![16, 1], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage2_0 : Fin 2 → Memref sig .tc .vmem S256x2048 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false]

abbrev stage2_1 : Fin 1 → Memref sig .tc .vmem S2048x2048 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false, true]

abbrev stage2_2 : Fin 2 → Memref sig .tc .vmem S256x2048 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]

abbrev stage2_3 : Fin 2 → Memref sig .tc .vmem S256x2048 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, true]

abbrev grid3 : Pipeline.Grid := ⟨1, ![16], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S256x2048 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x2048 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S256x2048 .bf16 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨2, ![11, 8], ![false, false]⟩

def cc4_transform_0 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc4_transform_1 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc4_transform_3 (i : grid4.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage4_0 : Fin 2 → Memref sig .tc .vmem S512x2048 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![false, true]

abbrev stage4_1 : Fin 2 → Memref sig .tc .vmem S1024x2048 .bf16 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true, false]

abbrev stage4_2 : Fin 2 → Memref sig .tc .vmem S1024x2048 .bf16 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true, false]

abbrev stage4_3 : Fin 2 → Memref sig .tc .vmem S512x1024 .bf16 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true, true]

abbrev grid5 : Pipeline.Grid := ⟨2, ![8, 8], ![false, false]⟩

def cc5_transform_0 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc5_transform_2 (i : grid5.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc5_transform_3 (i : grid5.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage5_0 : Fin 2 → Memref sig .tc .vmem S512x11264 .bf16 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true, false]

abbrev stage5_1 : Fin 2 → Memref sig .tc .vmem S256x11264 .bf16 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![false, true]

abbrev stage5_2 : Fin 2 → Memref sig .tc .vmem S512x256 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true, true]

abbrev stage5_3 : Fin 2 → Memref sig .tc .vmem S512x256 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true, true]

class Facts₀ : Prop where
  shapeCasts_S2x2048x2048_S4096x2048 : S2x2048x2048.ShapeCasts S4096x2048
  bitsLt_bf16_f32 : FTy.bits .bf16 < FTy.bits .f32
  pads_S10944x2048_S11264x2048_03200_000 : S10944x2048.Pads (![0, 0] : Fin 2 → Nat) ![320, 0] ![0, 0] S11264x2048
  h_S_ : 0 < S_.numel
  pads_S2048x10944_S2048x11264_000_03200 : S2048x10944.Pads (![0, 0] : Fin 2 → Nat) ![0, 320] ![0, 0] S2048x11264
  shapeCasts_S2048_S1x2048 : S2048.ShapeCasts S1x2048
  inb_S256x2048_S256x2048_0_0 : ∀ a, (![0, 0] : Fin 2 → Nat) a + S256x2048.size a ≤ S256x2048.size a
  h_S256x2048 : 0 < S256x2048.numel
  shapeCasts_S256x2048_S256x2048 : S256x2048.ShapeCasts S256x2048
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  reduces_S256x2048_S256 : S256x2048.Reduces [1] S256
  shapeCasts_S256_S256x1 : S256.ShapeCasts S256x1
  broadcasts_S256x1_S256x2048 : S256x1.Broadcasts S256x2048
  broadcasts_S1x2048_S256x2048 : S1x2048.Broadcasts S256x2048
  packedbf16_S256x2048_S256x2048_0_0 : (Rect.unit (s := S256x2048) ![0, 0] S256x2048.size inb_S256x2048_S256x2048_0_0).PackedRows (EltTy.packing .bf16)
  inb_S2048x2048_S2048x2048_0_0 : ∀ a, (![0, 0] : Fin 2 → Nat) a + S2048x2048.size a ≤ S2048x2048.size a
  h_S2048x2048 : 0 < S2048x2048.numel
  shapeCasts_S2048x2048_S2048x2048 : S2048x2048.ShapeCasts S2048x2048
  inb_S512x2048_S512x2048_0_0 : ∀ a, (![0, 0] : Fin 2 → Nat) a + S512x2048.size a ≤ S512x2048.size a
  h_S512x2048 : 0 < S512x2048.numel
  shapeCasts_S512x2048_S512x2048 : S512x2048.ShapeCasts S512x2048
  inb_S1024x2048_S1024x2048_0_0 : ∀ a, (![0, 0] : Fin 2 → Nat) a + S1024x2048.size a ≤ S1024x2048.size a
  h_S1024x2048 : 0 < S1024x2048.numel
  shapeCasts_S1024x2048_S1024x2048 : S1024x2048.ShapeCasts S1024x2048
  inb_S512x1024_S512x1024_0_0 : ∀ a, (![0, 0] : Fin 2 → Nat) a + S512x1024.size a ≤ S512x1024.size a
  h_S512x1024 : 0 < S512x1024.numel
  packedbf16_S512x1024_S512x1024_0_0 : (Rect.unit (s := S512x1024) ![0, 0] S512x1024.size inb_S512x1024_S512x1024_0_0).PackedRows (EltTy.packing .bf16)
  inb_S512x11264_S512x11264_0_0 : ∀ a, (![0, 0] : Fin 2 → Nat) a + S512x11264.size a ≤ S512x11264.size a
  h_S512x11264 : 0 < S512x11264.numel
  shapeCasts_S512x11264_S512x11264 : S512x11264.ShapeCasts S512x11264
  inb_S256x11264_S256x11264_0_0 : ∀ a, (![0, 0] : Fin 2 → Nat) a + S256x11264.size a ≤ S256x11264.size a
  h_S256x11264 : 0 < S256x11264.numel
  shapeCasts_S256x11264_S256x11264 : S256x11264.ShapeCasts S256x11264
  inb_S512x256_S512x256_0_0 : ∀ a, (![0, 0] : Fin 2 → Nat) a + S512x256.size a ≤ S512x256.size a
  h_S512x256 : 0 < S512x256.numel
  shapeCasts_S512x256_S512x256 : S512x256.ShapeCasts S512x256
  shapeCasts_S4096x2048_S2x2048x2048 : S4096x2048.ShapeCasts S2x2048x2048
  dot_S256x2048_S2048x2048_S256x2048_1_1_0_0_n_n_wf : DotDims.WF S256x2048 S2048x2048 S256x2048 [1] [1] [0] [0] [] []
  dot_S512x2048_S1024x2048_S512x1024_1_1_0_0_n_n_wf : DotDims.WF S512x2048 S1024x2048 S512x1024 [1] [1] [0] [0] [] []
  dot_S512x11264_S256x11264_S512x256_1_1_0_0_n_n_wf : DotDims.WF S512x11264 S256x11264 S512x256 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x2048.size a ≤ S4096x2048.size a
  hwx0_0 : ∀ i : grid0.Coords, EltTy.bits .f32 = 32 ∨ (Rect.block (s := S4096x2048) S256x2048.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x2048.size a ≤ S1x2048.size a
  hwx0_1 : ∀ i : grid0.Coords, EltTy.bits .f32 = 32 ∨ (Rect.block (s := S1x2048) S1x2048.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x2048.size a ≤ S4096x2048.size a
  hwx0_2 : ∀ i : grid0.Coords, EltTy.bits .bf16 = 32 ∨ (Rect.block (s := S4096x2048) S256x2048.size (cc0_transform_2 i) (hinb0_2 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S256x2048.size a ≤ S4096x2048.size a
  hwx1_0 : ∀ i : grid1.Coords, EltTy.bits .bf16 = 32 ∨ (Rect.block (s := S4096x2048) S256x2048.size (cc1_transform_0 i) (hinb1_0 i)).WholeWords (EltTy.packing .bf16)
  hstage1_1 : ∀ j, (stage1_1 j).IsWhole
  nbuf1_1 : grid1.bufCount reads1_1 false = 1
  hreads1_1 : ∀ i i' : grid1.Coords, (∀ a, reads1_1 a = true → i a = i' a) → cc1_transform_1 i = cc1_transform_1 i'
  hinb1_1 : ∀ (i : grid1.Coords) a, (cc1_transform_1 i a + 1) * S2048x2048.size a ≤ S2048x2048.size a
  hwx1_1 : ∀ i : grid1.Coords, EltTy.bits .bf16 = 32 ∨ (Rect.block (s := S2048x2048) S2048x2048.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S256x2048.size a ≤ S4096x2048.size a
  hwx1_2 : ∀ i : grid1.Coords, EltTy.bits .bf16 = 32 ∨ (Rect.block (s := S4096x2048) S256x2048.size (cc1_transform_2 i) (hinb1_2 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S256x2048.size a ≤ S4096x2048.size a
  hwx2_0 : ∀ i : grid2.Coords, EltTy.bits .bf16 = 32 ∨ (Rect.block (s := S4096x2048) S256x2048.size (cc2_transform_0 i) (hinb2_0 i)).WholeWords (EltTy.packing .bf16)
  hstage2_1 : ∀ j, (stage2_1 j).IsWhole
  nbuf2_1 : grid2.bufCount reads2_1 false = 1
  hreads2_1 : ∀ i i' : grid2.Coords, (∀ a, reads2_1 a = true → i a = i' a) → cc2_transform_1 i = cc2_transform_1 i'
  hinb2_1 : ∀ (i : grid2.Coords) a, (cc2_transform_1 i a + 1) * S2048x2048.size a ≤ S2048x2048.size a
  hwx2_1 : ∀ i : grid2.Coords, EltTy.bits .bf16 = 32 ∨ (Rect.block (s := S2048x2048) S2048x2048.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S256x2048.size a ≤ S4096x2048.size a
  hwx2_2 : ∀ i : grid2.Coords, EltTy.bits .f32 = 32 ∨ (Rect.block (s := S4096x2048) S256x2048.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S256x2048.size a ≤ S4096x2048.size a
  hwx2_3 : ∀ i : grid2.Coords, EltTy.bits .f32 = 32 ∨ (Rect.block (s := S4096x2048) S256x2048.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S256x2048.size a ≤ S4096x2048.size a
  hwx3_0 : ∀ i : grid3.Coords, EltTy.bits .f32 = 32 ∨ (Rect.block (s := S4096x2048) S256x2048.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x2048.size a ≤ S1x2048.size a
  hwx3_1 : ∀ i : grid3.Coords, EltTy.bits .f32 = 32 ∨ (Rect.block (s := S1x2048) S1x2048.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S256x2048.size a ≤ S4096x2048.size a
  hwx3_2 : ∀ i : grid3.Coords, EltTy.bits .bf16 = 32 ∨ (Rect.block (s := S4096x2048) S256x2048.size (cc3_transform_2 i) (hinb3_2 i)).WholeWords (EltTy.packing .bf16)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S512x2048.size a ≤ S4096x2048.size a
  hwx4_0 : ∀ i : grid4.Coords, EltTy.bits .bf16 = 32 ∨ (Rect.block (s := S4096x2048) S512x2048.size (cc4_transform_0 i) (hinb4_0 i)).WholeWords (EltTy.packing .bf16)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S1024x2048.size a ≤ S11264x2048.size a
  hwx4_1 : ∀ i : grid4.Coords, EltTy.bits .bf16 = 32 ∨ (Rect.block (s := S11264x2048) S1024x2048.size (cc4_transform_1 i) (hinb4_1 i)).WholeWords (EltTy.packing .bf16)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S1024x2048.size a ≤ S11264x2048.size a
  hwx4_2 : ∀ i : grid4.Coords, EltTy.bits .bf16 = 32 ∨ (Rect.block (s := S11264x2048) S1024x2048.size (cc4_transform_2 i) (hinb4_2 i)).WholeWords (EltTy.packing .bf16)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S512x1024.size a ≤ S4096x11264.size a
  hwx4_3 : ∀ i : grid4.Coords, EltTy.bits .bf16 = 32 ∨ (Rect.block (s := S4096x11264) S512x1024.size (cc4_transform_3 i) (hinb4_3 i)).WholeWords (EltTy.packing .bf16)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S512x11264.size a ≤ S4096x11264.size a
  hwx5_0 : ∀ i : grid5.Coords, EltTy.bits .bf16 = 32 ∨ (Rect.block (s := S4096x11264) S512x11264.size (cc5_transform_0 i) (hinb5_0 i)).WholeWords (EltTy.packing .bf16)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S256x11264.size a ≤ S2048x11264.size a
  hwx5_1 : ∀ i : grid5.Coords, EltTy.bits .bf16 = 32 ∨ (Rect.block (s := S2048x11264) S256x11264.size (cc5_transform_1 i) (hinb5_1 i)).WholeWords (EltTy.packing .bf16)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S512x256.size a ≤ S4096x2048.size a
  hwx5_2 : ∀ i : grid5.Coords, EltTy.bits .f32 = 32 ∨ (Rect.block (s := S4096x2048) S512x256.size (cc5_transform_2 i) (hinb5_2 i)).WholeWords (EltTy.packing .f32)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S512x256.size a ≤ S4096x2048.size a
  hwx5_3 : ∀ i : grid5.Coords, EltTy.bits .f32 = 32 ∨ (Rect.block (s := S4096x2048) S512x256.size (cc5_transform_3 i) (hinb5_3 i)).WholeWords (EltTy.packing .f32)

variable [Facts₀]

def dot_S256x2048_S2048x2048_S256x2048_1_1_0_0_n_n : DotDims S256x2048 S2048x2048 S256x2048 where
  lhsContracting := [1]
  rhsContracting := [1]
  lhsNonContracting := [0]
  rhsNonContracting := [0]
  lhsBatch := []
  rhsBatch := []
  wf := dot_S256x2048_S2048x2048_S256x2048_1_1_0_0_n_n_wf
def dot_S512x2048_S1024x2048_S512x1024_1_1_0_0_n_n : DotDims S512x2048 S1024x2048 S512x1024 where
  lhsContracting := [1]
  rhsContracting := [1]
  lhsNonContracting := [0]
  rhsNonContracting := [0]
  lhsBatch := []
  rhsBatch := []
  wf := dot_S512x2048_S1024x2048_S512x1024_1_1_0_0_n_n_wf
def dot_S512x11264_S256x11264_S512x256_1_1_0_0_n_n : DotDims S512x11264 S256x11264 S512x256 where
  lhsContracting := [1]
  rhsContracting := [1]
  lhsNonContracting := [0]
  rhsNonContracting := [0]
  lhsBatch := []
  rhsBatch := []
  wf := dot_S512x11264_S256x11264_S512x256_1_1_0_0_n_n_wf

abbrev win0_0 : Pipeline.Window sig grid0 :=
  Pipeline.Window.ofSpec (Memref.whole main_v0) S256x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v9) S1x2048.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v10) S256x2048.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v10) S256x2048.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v1) S2048x2048.size cc1_transform_1 reads1_1 false false 1 stage1_1 sem1_1
    hrank1 hreads1_1 hinb1_1 nbuf1_1 (Memref.isWhole_whole _) hwx1_1 hstage1_1

abbrev win1_2 : Pipeline.Window sig grid1 :=
  Pipeline.Window.ofSpec (Memref.whole main_v11) S256x2048.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v11) S256x2048.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v2) S2048x2048.size cc2_transform_1 reads2_1 false false 1 stage2_1 sem2_1
    hrank2 hreads2_1 hinb2_1 nbuf2_1 (Memref.isWhole_whole _) hwx2_1 hstage2_1

abbrev win2_2 : Pipeline.Window sig grid2 :=
  Pipeline.Window.ofSpec (Memref.whole main_v0) S256x2048.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v12) S256x2048.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v12) S256x2048.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v13) S1x2048.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v14) S256x2048.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v14) S512x2048.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v4) S1024x2048.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v6) S1024x2048.size cc4_transform_2 reads4_2 false false 2 stage4_2 sem4_2
    hrank4 hreads4_2 hinb4_2 nbuf4_2 (Memref.isWhole_whole _) hwx4_2 hstage4_2

abbrev win4_3 : Pipeline.Window sig grid4 :=
  Pipeline.Window.ofSpec (Memref.whole main_v15) S512x1024.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

abbrev win5_0 : Pipeline.Window sig grid5 :=
  Pipeline.Window.ofSpec (Memref.whole main_v15) S512x11264.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v8) S256x11264.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v12) S512x256.size cc5_transform_2 reads5_2 false false 2 stage5_2 sem5_2
    hrank5 hreads5_2 hinb5_2 nbuf5_2 (Memref.isWhole_whole _) hwx5_2 hstage5_2

abbrev win5_3 : Pipeline.Window sig grid5 :=
  Pipeline.Window.ofSpec (Memref.whole main_v16) S512x256.size cc5_transform_3 reads5_3 true false 2 stage5_3 sem5_3
    hrank5 hreads5_3 hinb5_3 nbuf5_3 (Memref.isWhole_whole _) hwx5_3 hstage5_3

abbrev win5 : Fin 4 → Pipeline.Window sig grid5 := fun | 0 => win5_0 | 1 => win5_1 | 2 => win5_2 | 3 => win5_3 | ⟨_ + 4, h⟩ => absurd h (Nat.not_lt.2 (Nat.le_add_left _ _))
abbrev spec5 : Fin 4 → Pipeline.WinSpec sig grid5.rank := fun w => (win5 w).toWinSpec

class Facts : Prop extends Facts₀ where

variable [Facts]
-- ==== ReferenceIdeal.lean ====
abbrev S2x2048x2048 : Shape := ⟨3, ![2, 2048, 2048]⟩
abbrev S2x2048 : Shape := ⟨2, ![2, 2048]⟩
abbrev S2048 : Shape := ⟨1, ![2048]⟩
abbrev S2048x2048 : Shape := ⟨2, ![2048, 2048]⟩
abbrev S10944x2048 : Shape := ⟨2, ![10944, 2048]⟩
abbrev S2048x10944 : Shape := ⟨2, ![2048, 10944]⟩
abbrev S4096x2048 : Shape := ⟨2, ![4096, 2048]⟩
abbrev S_ : Shape := ⟨0, ![]⟩
abbrev S4096 : Shape := ⟨1, ![4096]⟩
abbrev S4096x1 : Shape := ⟨2, ![4096, 1]⟩
abbrev S1x2048 : Shape := ⟨2, ![1, 2048]⟩
abbrev S4096x10944 : Shape := ⟨2, ![4096, 10944]⟩

abbrev nBuf : Space → Nat
  | .hbm => 60
  | .vmem => 0
  | .smem => 0
  | _ => 0

abbrev bufTy : (tb : Table) → Fin (tcTables nBuf tb) → BufTy
  | .hbm, ⟨0, _⟩ => ⟨S2x2048x2048, .f32⟩
  | .hbm, ⟨1, _⟩ => ⟨S2x2048, .i32⟩
  | .hbm, ⟨2, _⟩ => ⟨S2048, .f32⟩
  | .hbm, ⟨3, _⟩ => ⟨S2048, .f32⟩
  | .hbm, ⟨4, _⟩ => ⟨S2048x2048, .f32⟩
  | .hbm, ⟨5, _⟩ => ⟨S2048x2048, .f32⟩
  | .hbm, ⟨6, _⟩ => ⟨S10944x2048, .f32⟩
  | .hbm, ⟨7, _⟩ => ⟨S10944x2048, .f32⟩
  | .hbm, ⟨8, _⟩ => ⟨S2048x10944, .f32⟩
  | .hbm, ⟨9, _⟩ => ⟨S4096x2048, .f32⟩
  | .hbm, ⟨10, _⟩ => ⟨S4096x2048, .f32⟩
  | .hbm, ⟨11, _⟩ => ⟨S_, .f32⟩
  | .hbm, ⟨12, _⟩ => ⟨S4096, .f32⟩
  | .hbm, ⟨13, _⟩ => ⟨S4096x1, .f32⟩
  | .hbm, ⟨14, _⟩ => ⟨S_, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x1, .f32⟩
  | .hbm, ⟨21, _⟩ => ⟨S4096x2048, .f32⟩
  | .hbm, ⟨22, _⟩ => ⟨S4096x2048, .f32⟩
  | .hbm, ⟨23, _⟩ => ⟨S1x2048, .f32⟩
  | .hbm, ⟨24, _⟩ => ⟨S4096x2048, .f32⟩
  | .hbm, ⟨25, _⟩ => ⟨S4096x2048, .f32⟩
  | .hbm, ⟨26, _⟩ => ⟨S4096x2048, .f32⟩
  | .hbm, ⟨27, _⟩ => ⟨S4096x2048, .f32⟩
  | .hbm, ⟨28, _⟩ => ⟨S4096x2048, .f32⟩
  | .hbm, ⟨29, _⟩ => ⟨S4096x2048, .f32⟩
  | .hbm, ⟨30, _⟩ => ⟨S_, .f32⟩
  | .hbm, ⟨31, _⟩ => ⟨S4096, .f32⟩
  | .hbm, ⟨32, _⟩ => ⟨S4096x1, .f32⟩
  | .hbm, ⟨33, _⟩ => ⟨S_, .f32⟩
  | .hbm, ⟨34, _⟩ => ⟨S4096x1, .f32⟩
  | .hbm, ⟨35, _⟩ => ⟨S4096x1, .f32⟩
  | .hbm, ⟨36, _⟩ => ⟨S_, .f32⟩
  | .hbm, ⟨37, _⟩ => ⟨S4096x1, .f32⟩
  | .hbm, ⟨38, _⟩ => ⟨S4096x1, .f32⟩
  | .hbm, ⟨39, _⟩ => ⟨S4096x1, .f32⟩
  | .hbm, ⟨40, _⟩ => ⟨S4096x2048, .f32⟩
  | .hbm, ⟨41, _⟩ => ⟨S4096x2048, .f32⟩
  | .hbm, ⟨42, _⟩ => ⟨S1x2048, .f32⟩
  | .hbm, ⟨43, _⟩ => ⟨S4096x2048, .f32⟩
  | .hbm, ⟨44, _⟩ => ⟨S4096x2048, .f32⟩
  | .hbm, ⟨45, _⟩ => ⟨S4096x10944, .f32⟩
  | .hbm, ⟨46, _⟩ => ⟨S4096x10944, .f32⟩
  | .hbm, ⟨47, _⟩ => ⟨S4096x10944, .f32⟩
  | .hbm, ⟨48, _⟩ => ⟨S_, .f32⟩
  | .hbm, ⟨49, _⟩ => ⟨S4096x10944, .f32⟩
  | .hbm, ⟨50, _⟩ => ⟨S4096x10944, .f32⟩
  | .hbm, ⟨51, _⟩ => ⟨S_, .f32⟩
  | .hbm, ⟨52, _⟩ => ⟨S4096x10944, .f32⟩
  | .hbm, ⟨53, _⟩ => ⟨S4096x10944, .f32⟩
  | .hbm, ⟨54, _⟩ => ⟨S4096x10944, .f32⟩
  | .hbm, ⟨55, _⟩ => ⟨S4096x10944, .f32⟩
  | .hbm, ⟨56, _⟩ => ⟨S4096x10944, .f32⟩
  | .hbm, ⟨57, _⟩ => ⟨S4096x2048, .f32⟩
  | .hbm, ⟨58, _⟩ => ⟨S4096x2048, .f32⟩
  | .hbm, ⟨59, _⟩ => ⟨S2x2048x2048, .f32⟩
  | _, _ => ⟨S2x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_cst : Ref sig .tc := ⟨.hbm, 11, rfl⟩
abbrev main_v2 : Ref sig .tc := ⟨.hbm, 12, rfl⟩
abbrev main_v3 : Ref sig .tc := ⟨.hbm, 13, rfl⟩
abbrev main_cst_0 : Ref sig .tc := ⟨.hbm, 14, rfl⟩
abbrev main_v4 : Ref sig .tc := ⟨.hbm, 15, rfl⟩
abbrev main_v5 : Ref sig .tc := ⟨.hbm, 16, rfl⟩
abbrev main_cst_1 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst_2 : Ref sig .tc := ⟨.hbm, 30, rfl⟩
abbrev main_v18 : Ref sig .tc := ⟨.hbm, 31, rfl⟩
abbrev main_v19 : Ref sig .tc := ⟨.hbm, 32, rfl⟩
abbrev main_cst_3 : Ref sig .tc := ⟨.hbm, 33, rfl⟩
abbrev main_v20 : Ref sig .tc := ⟨.hbm, 34, rfl⟩
abbrev main_v21 : Ref sig .tc := ⟨.hbm, 35, rfl⟩
abbrev main_cst_4 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_call0_v0 : Ref sig .tc := ⟨.hbm, 46, rfl⟩
abbrev main_call0_v1 : Ref sig .tc := ⟨.hbm, 47, rfl⟩
abbrev main_call0_cst : Ref sig .tc := ⟨.hbm, 48, rfl⟩
abbrev main_call0_v2 : Ref sig .tc := ⟨.hbm, 49, rfl⟩
abbrev main_call0_v3 : Ref sig .tc := ⟨.hbm, 50, rfl⟩
abbrev main_call0_cst_0 : Ref sig .tc := ⟨.hbm, 51, rfl⟩
abbrev main_call0_v4 : Ref sig .tc := ⟨.hbm, 52, rfl⟩
abbrev main_call0_v5 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩

abbrev nD : Nat := 1
abbrev τ : Topo := Topo.v7x

variable {F : FTy → Type} [FloatOps F]

class Facts₀ : Prop where
  shapeCasts_S2x2048x2048_S4096x2048 : S2x2048x2048.ShapeCasts S4096x2048
  reducesTo_S4096x2048_S4096_d1 : S4096x2048.ReducesTo [1] S4096
  h_S_ : 0 < S_.numel
  bcast_S4096_S4096x1_0 : S4096.BroadcastsInDim S4096x1 (![0] : Fin 1 → Fin S4096x1.rank)
  bcast_S_S4096x1 : S_.BroadcastsInDim S4096x1 (![] : Fin 0 → Fin S4096x1.rank)
  bcast_S4096x1_S4096x2048_0_1 : S4096x1.BroadcastsInDim S4096x2048 (![0, 1] : Fin 2 → Fin S4096x2048.rank)
  bcast_S2048_S1x2048_1 : S2048.BroadcastsInDim S1x2048 (![1] : Fin 1 → Fin S1x2048.rank)
  bcast_S1x2048_S4096x2048_0_1 : S1x2048.BroadcastsInDim S4096x2048 (![0, 1] : Fin 2 → Fin S4096x2048.rank)
  bcast_S_S4096x10944 : S_.BroadcastsInDim S4096x10944 (![] : Fin 0 → Fin S4096x10944.rank)
  shapeCasts_S4096x2048_S2x2048x2048 : S4096x2048.ShapeCasts S2x2048x2048
  dot_S4096x2048_S2048x2048_S4096x2048_1_1_0_0_n_n_wf : DotDims.WF S4096x2048 S2048x2048 S4096x2048 [1] [1] [0] [0] [] []
  dot_S4096x2048_S10944x2048_S4096x10944_1_1_0_0_n_n_wf : DotDims.WF S4096x2048 S10944x2048 S4096x10944 [1] [1] [0] [0] [] []
  dot_S4096x10944_S2048x10944_S4096x2048_1_1_0_0_n_n_wf : DotDims.WF S4096x10944 S2048x10944 S4096x2048 [1] [1] [0] [0] [] []

variable [Facts₀]

def dot_S4096x2048_S2048x2048_S4096x2048_1_1_0_0_n_n : DotDims S4096x2048 S2048x2048 S4096x2048 where
  lhsContracting := [1]
  rhsContracting := [1]
  lhsNonContracting := [0]
  rhsNonContracting := [0]
  lhsBatch := []
  rhsBatch := []
  wf := dot_S4096x2048_S2048x2048_S4096x2048_1_1_0_0_n_n_wf
def dot_S4096x2048_S10944x2048_S4096x10944_1_1_0_0_n_n : DotDims S4096x2048 S10944x2048 S4096x10944 where
  lhsContracting := [1]
  rhsContracting := [1]
  lhsNonContracting := [0]
  rhsNonContracting := [0]
  lhsBatch := []
  rhsBatch := []
  wf := dot_S4096x2048_S10944x2048_S4096x10944_1_1_0_0_n_n_wf
def dot_S4096x10944_S2048x10944_S4096x2048_1_1_0_0_n_n : DotDims S4096x10944 S2048x10944 S4096x2048 where
  lhsContracting := [1]
  rhsContracting := [1]
  lhsNonContracting := [0]
  rhsNonContracting := [0]
  lhsBatch := []
  rhsBatch := []
  wf := dot_S4096x10944_S2048x10944_S4096x2048_1_1_0_0_n_n_wf

class Facts : Prop extends Facts₀ where

variable [Facts]
-- ==== Proof.KernelRun.lean ====
/-
  The run of the whole program with its result named: every weakly fair execution from a memory with zero counters
  terminates without a fault, the result buffer ends holding what the last host operation leaves there — the fold of
  the host stretches and the six calls over the launch memory, read at the result buffer — and the nine argument
  arrays end as launched. It is the run over the program's fifteen segments read at one more buffer than the frame
  reads: every unscoped buffer ends at the last boundary's contents, the result buffer among them.
-/
import proofs.«177261_j1571958030520_2_alg».proof.Proof.Gen.KernelIdeal.Frame

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run with the result buffer named: it ends at the last boundary's contents `W15`, the arguments as launched. -/
theorem run_result : θ_run defs (onTc (τ := τ) (main (F := F))) ⟨m, fun _ => 0, ρ⟩ (fun r => ∀ c : Dev nD,
      r.2.mem ((c.tc : Thread nD τ).loc main_v17) = W15 m ρ c (Proc.devRef .tc main_v17)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W15 m ρ c b)
    (hfin := fun c s' => by
      iintro ⟨⟨Hh, -⟩, HSI⟩
      unfold StableHlo.held
      imodintro
      iapply (pointsTo_read_all (Pipeline.ucRefs τ sig) (fun b => (((c : Thread nD τ)).1, b)) (W15 m ρ c) s')
      isplitl [Hh] <;> iassumption)
    (hQ := fun s h c =>
      ⟨h c _ (mem_uc main_v17 (by decide)),
       (h c _ (mem_uc main_arg0 (by decide))).trans (W15_main_arg0 m ρ c),
       (h c _ (mem_uc main_arg1 (by decide))).trans (W15_main_arg1 m ρ c),
       (h c _ (mem_uc main_arg2 (by decide))).trans (W15_main_arg2 m ρ c),
       (h c _ (mem_uc main_arg3 (by decide))).trans (W15_main_arg3 m ρ c),
       (h c _ (mem_uc main_arg4 (by decide))).trans (W15_main_arg4 m ρ c),
       (h c _ (mem_uc main_arg5 (by decide))).trans (W15_main_arg5 m ρ c),
       (h c _ (mem_uc main_arg6 (by decide))).trans (W15_main_arg6 m ρ c),
       (h c _ (mem_uc main_arg7 (by decide))).trans (W15_main_arg7 m ρ c),
       (h c _ (mem_uc main_arg8 (by decide))).trans (W15_main_arg8 m ρ c)⟩)

end Cert.KernelIdeal.Gen

end
-- ==== Proof.Spec.lean ====
/-
  One decoder layer on extended reals, as a function of its arrays.

  A row of the activations is normalized by its root mean square: entry j of the row becomes
  x_j * rsqrt((sum_k x_k * x_k) / 2048 + eps) * w_j (`rowNorm`, `rmsNorm`).  A projection multiplies the
  activations by the TRANSPOSE of a weight matrix stored row per output feature:
  (A * B^T)(p, j) = sum_k A(p, k) * B(j, k) (`mmT`).  The layer is

      hidden = (norm(x, w_in) * Wq^T) * Wo^T + x
      out    = (silu(h * Wg^T) .* (h * Wu^T)) * Wd^T + hidden,      h = norm(hidden, w_post),

  with silu(g) = g * logistic(g).  The two literals 2048 and eps stay the f32 words both programs print.

  The intermediate width of the gated product may be padded: rows appended to Wg and Wu and zero columns
  appended to Wd change nothing, because every appended term of the last contraction is a product with the
  zero column entry (`mmT_pad`, `layer_pad`); on the extended reals x * 0 = 0 for every x, so no entry has
  to be finite for this.
-/
import Idealize.ShloMosaic.PureOps.Ideal
import Idealize.ShloMosaic.PureOps.Ideal.Laws
import Idealize.ShloMosaic.Lib.ValueIdx

noncomputable section

namespace Cert.Layer

open Idealize.ShloMosaic Idealize.ShloMosaic.ValueIdx
open scoped BigOperators

/-- A matrix of extended reals, indexed as the arrays of both programs are. -/
abbrev Mat (a b : ℕ) : Type := (⟨2, ![a, b]⟩ : Shape).Idx → EReal

/-- The row length 2048, as the f32 word both programs divide by. -/
def cN : EReal := Ideal.ofBits .f32 0x45000000#32
/-- The stabilizer eps, as the f32 word both programs add. -/
def cEps : EReal := Ideal.ofBits .f32 0x358637BD#32

/-- Entry j of a row scaled by the reciprocal root of its mean square, times the weight of lane j. -/
def rowNorm (row : Fin 2048 → EReal) (w : EReal) (j : Fin 2048) : EReal :=
  row j * Ideal.rsqrt (Ideal.div (∑ k : Fin 2048, row k * row k) cN + cEps) * w

/-- Every row normalized. -/
def rmsNorm {R : ℕ} (x : Mat R 2048) (w : Fin 2048 → EReal) : Mat R 2048 :=
  fun i => rowNorm (fun k => x (ix2 (i 0) k)) (w (i 1)) (i 1)

/-- The product with a transposed matrix: both operands are contracted along their lanes. -/
def mmT {R N K : ℕ} (a : Mat R K) (b : Mat N K) : Mat R N :=
  fun i => ∑ k : Fin K, a (ix2 (i 0) k) * b (ix2 (i 1) k)

/-- The entrywise sum. -/
def addM {R N : ℕ} (a b : Mat R N) : Mat R N := fun i => a i + b i

/-- silu(g) = g * logistic(g). -/
def silu (g : EReal) : EReal := g * Ideal.logistic g

/-- The gated product silu(a * Wg^T) .* (a * Wu^T). -/
def gateUp {R N : ℕ} (a : Mat R 2048) (wg wu : Mat N 2048) : Mat R N :=
  fun i => silu (mmT a wg i) * mmT a wu i

/-- The residual stream after the two projections. -/
def hidden (x : Mat 4096 2048) (inw : Fin 2048 → EReal) (wq wo : Mat 2048 2048) : Mat 4096 2048 :=
  addM (mmT (mmT (rmsNorm x inw) wq) wo) x

/-- The whole layer, for any intermediate width N. -/
def layer {N : ℕ} (x : Mat 4096 2048) (inw postw : Fin 2048 → EReal) (wq wo : Mat 2048 2048)
    (wg wu : Mat N 2048) (wd : Mat 2048 N) : Mat 4096 2048 :=
  addM (mmT (gateUp (rmsNorm (hidden x inw wq wo) postw) wg wu) wd) (hidden x inw wq wo)

/-- A contraction over 10944 + 320 lanes whose last 320 right-hand entries are zero is the contraction over the
    first 10944 lanes. -/
theorem mmT_pad {R N : ℕ} (a : Mat R 11264) (a' : Mat R 10944) (b : Mat N 11264) (b' : Mat N 10944)
    (ha : ∀ (p : Fin R) (k : Fin 10944), a (ix2 p (⟨k.val, by omega⟩ : Fin 11264)) = a' (ix2 p k))
    (hb : ∀ (j : Fin N) (k : Fin 10944), b (ix2 j (⟨k.val, by omega⟩ : Fin 11264)) = b' (ix2 j k))
    (hb0 : ∀ (j : Fin N) (k : Fin 11264), 10944 ≤ k.val → b (ix2 j k) = 0) : mmT a b = mmT a' b' := by
  funext i
  unfold mmT
  have hsplit := Fin.sum_univ_add (a := 10944) (b := 320) fun k : Fin (10944 + 320) => a (ix2 (i 0) k) * b (ix2 (i 1) k)
  refine hsplit.trans ?_
  have hz : ∑ k : Fin 320, a (ix2 (i 0) (Fin.natAdd 10944 k)) * b (ix2 (i 1) (Fin.natAdd 10944 k)) = 0 :=
    Finset.sum_eq_zero fun k _ => by
      rw [hb0 (i 1) (Fin.natAdd 10944 k) (by show 10944 ≤ 10944 + k.val; omega), mul_zero]
  rw [hz, add_zero]
  exact Finset.sum_congr rfl fun k _ => by
    rw [← ha (i 0) k, ← hb (i 1) k]
    rfl

/-- The gated product at a lane below 10944 does not see rows appended to the two weight matrices. -/
theorem gateUp_pad {R : ℕ} (h : Mat R 2048) (wg wu : Mat 11264 2048) (wg' wu' : Mat 10944 2048)
    (hg : ∀ (k : Fin 10944) (l : Fin 2048), wg (ix2 (⟨k.val, by omega⟩ : Fin 11264) l) = wg' (ix2 k l))
    (hu : ∀ (k : Fin 10944) (l : Fin 2048), wu (ix2 (⟨k.val, by omega⟩ : Fin 11264) l) = wu' (ix2 k l))
    (p : Fin R) (k : Fin 10944) :
    gateUp h wg wu (ix2 p (⟨k.val, by omega⟩ : Fin 11264)) = gateUp h wg' wu' (ix2 p k) := by
  unfold gateUp mmT
  show silu (∑ l : Fin 2048, h (ix2 p l) * wg (ix2 (⟨k.val, _⟩ : Fin 11264) l))
      * (∑ l : Fin 2048, h (ix2 p l) * wu (ix2 (⟨k.val, _⟩ : Fin 11264) l))
    = silu (∑ l : Fin 2048, h (ix2 p l) * wg' (ix2 k l)) * (∑ l : Fin 2048, h (ix2 p l) * wu' (ix2 k l))
  simp only [hg, hu]

/-- THE PADDING IS EXACT: the layer over weights padded from 10944 to 11264 lanes — rows appended to Wg and Wu (whatever
    they hold), zero columns appended to Wd — is the layer over the weights themselves. -/
theorem layer_pad (x : Mat 4096 2048) (inw postw : Fin 2048 → EReal) (wq wo : Mat 2048 2048)
    (wg wu : Mat 11264 2048) (wd : Mat 2048 11264) (wg' wu' : Mat 10944 2048) (wd' : Mat 2048 10944)
    (hg : ∀ (k : Fin 10944) (l : Fin 2048), wg (ix2 (⟨k.val, by omega⟩ : Fin 11264) l) = wg' (ix2 k l))
    (hu : ∀ (k : Fin 10944) (l : Fin 2048), wu (ix2 (⟨k.val, by omega⟩ : Fin 11264) l) = wu' (ix2 k l))
    (hd : ∀ (j : Fin 2048) (k : Fin 10944), wd (ix2 j (⟨k.val, by omega⟩ : Fin 11264)) = wd' (ix2 j k))
    (hd0 : ∀ (j : Fin 2048) (k : Fin 11264), 10944 ≤ k.val → wd (ix2 j k) = 0) :
    layer x inw postw wq wo wg wu wd = layer x inw postw wq wo wg' wu' wd' := by
  unfold layer
  rw [mmT_pad _ (gateUp (rmsNorm (hidden x inw wq wo) postw) wg' wu') wd wd'
    (fun p k => gateUp_pad _ wg wu wg' wu' hg hu p k) hd hd0]

end Cert.Layer

end
-- ==== Proof.LibLayout.lean ====
/-
  Layout operations read at an index given by coordinates: the forms a row-wise normalization meets and the
  library does not yet have.

  * a column of row statistics: a vector `[a]` cast to `[a, 1]` (`keepdims`), and that column broadcast back over
    the `b` lanes of every row, `[a, 1] → [a, b]`;
  * one matrix broadcast over a new leading axis, `[1, b, c] → [a, b, c]`;
  * the rows of a `[4096, 768]` block regrouped as `[4, 1024, 768]` and back: row `r` is group `r / 1024`,
    member `r % 1024`, because both arrays list their entries in the same row-major order;
  * a sum over the lane axis of a matrix, read at row `r`: the sum over `k` of the entries `(r, k)`.
-/
import Idealize.ShloMosaic.Lib.ValueLayout
import Idealize.ShloMosaic.PureOps.Ideal.Laws

noncomputable section

namespace Cert.LibLayout

open Idealize.ShloMosaic Idealize.ShloMosaic.ValueIdx

variable {α : Type}

/-- An `[a]` vector cast to a column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast over `b` lanes reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- One `[1, b, c]` matrix broadcast over a leading axis of `a` copies reads, at `(p, q, r)`, the matrix at `(q, r)`. -/
theorem broadcastTo_1bc_abc_apply {a b c : ℕ} (v : (⟨3, ![1, b, c]⟩ : Shape).Idx → α)
    (h : (⟨3, ![1, b, c]⟩ : Shape).Broadcasts ⟨3, ![a, b, c]⟩) (p : Fin a) (q : Fin b) (r : Fin c) :
    broadcastTo ⟨3, ![a, b, c]⟩ v h (ix3 p q r) = v (ix3 (0 : Fin 1) q r) := by
  refine broadcastTo_apply v h (ix3 p q r) (ix3 (0 : Fin 1) q r) fun ax => ?_
  match ax with
  | ⟨0, _⟩ => rfl
  | ⟨1, _⟩ =>
    show q.val = if b = 1 then 0 else q.val
    split
    · have := q.isLt; omega
    · rfl
  | ⟨2, _⟩ =>
    show r.val = if c = 1 then 0 else r.val
    split
    · have := r.isLt; omega
    · rfl

/-- The 4096 rows regrouped as 4 groups of 1024: entry `(g, n, k)` of the regrouped array is row `g · 1024 + n`. -/
theorem shapeCast_split_apply (x : (⟨2, ![4096, 768]⟩ : Shape).Idx → α)
    (h : (⟨2, ![4096, 768]⟩ : Shape).ShapeCasts ⟨3, ![4, 1024, 768]⟩) (g : Fin 4) (n : Fin 1024) (k : Fin 768) :
    shapeCast ⟨3, ![4, 1024, 768]⟩ x h (ix3 g n k) = x (ix2 (⟨g.val * 1024 + n.val, by omega⟩ : Fin 4096) k) :=
  shapeCast_apply x h _ _ (by
    rw [Shape.rowMajor_val_two, Shape.rowMajor_val_three]
    rfl)

/-- The 4 groups of 1024 rows listed again as 4096 rows: row `r` is member `r % 1024` of group `r / 1024`. -/
theorem shapeCast_merge_apply (y : (⟨3, ![4, 1024, 768]⟩ : Shape).Idx → α)
    (h : (⟨3, ![4, 1024, 768]⟩ : Shape).ShapeCasts ⟨2, ![4096, 768]⟩) (r : Fin 4096) (k : Fin 768) :
    shapeCast ⟨2, ![4096, 768]⟩ y h (ix2 r k)
      = y (ix3 (⟨r.val / 1024, by omega⟩ : Fin 4) (⟨r.val % 1024, by omega⟩ : Fin 1024) k) :=
  shapeCast_apply y h _ _ (by
    rw [Shape.rowMajor_val_two, Shape.rowMajor_val_three]
    show (r.val / 1024 * 1024 + r.val % 1024) * 768 + k.val = r.val * 768 + k.val
    omega)

/-- Over row `r` of a matrix, the index with lane `k` put back on the summed axis is `(r, k)`. -/
theorem lift_row {a b : ℕ} (h : Shape.Reduces ⟨2, ![a, b]⟩ [1] ⟨1, ![a]⟩) (r : Fin a) (k : Fin b) :
    h.lift (ix1 r) k = ix2 r k := by
  funext c
  refine Fin.ext ?_
  match c with
  | ⟨0, _⟩ => rfl
  | ⟨1, _⟩ => rfl

/-- A float sum over the lane axis of a matrix, read at row `r` at the exact instance: the sum of the row's entries. -/
theorem laneSum_apply {a b : ℕ} (v : FVec Ideal ⟨2, ![a, b]⟩ .f32) (h : Shape.Reduces ⟨2, ![a, b]⟩ [1] ⟨1, ![a]⟩)
    (hφ : FKind.Formats .f32) (hacc : (0x00000000#32 : BitVec 32) = FKind.add.neutral .f32 hφ) (r : Fin a) :
    multiReduction .add [1] ⟨1, ![a]⟩ v 0x00000000#32 h hφ hacc (ix1 r) = ∑ k : Fin b, v (ix2 r k) :=
  (Ideal.multiReduction_add_single v 0x00000000#32 h hφ hacc (ix1 r)).trans
    (Finset.sum_congr rfl fun k _ => congrArg v (lift_row h r k))

end Cert.LibLayout

end
-- ==== Proof.LibLanes.lean ====
/-
  GENERAL LEMMAS: a contraction of the lanes of two matrices — (A * B^T)(p, q) = sum over k of A(p, k) * B(q, k) — read at
  an index on extended reals, in the two spellings a kernel and a host program give it. Nothing here mentions a program;
  the extents R (rows of A), N (rows of B) and K (the contracted lanes) are arbitrary.

  * idx2_ext: two rank-2 indices with the same coordinates are one index.
  * contraction_lanes: a contraction of axis 1 of an [R, K] array with axis 1 of an [N, K] array (no batch axes), read
    at (p, q), is the sum over k : Fin K of l (p, k) * r (q, k); the dimension record enters only through four coordinate
    facts about its operand indices (for a printed record: two by unfolding, two by DotDims.lhsIdx_val_of_single /
    rhsIdx_val_of_single) and the rank and extent of its contraction shape (both rfl).
  * matmul_lanes: the kernel's spelling — the matrix unit's product into a zero accumulator — at (p, q).
  * hostdot_lanes: the host's spelling — dot_general — at (p, q).
  No law of extended-real arithmetic beyond reindexing a finite sum is used, so none of these needs finite inputs.
-/
import Idealize.ShloMosaic.PureOps.Ideal
import Idealize.ShloMosaic.PureOps.Ideal.Laws
import Idealize.ShloMosaic.Lib.ValueIdx

noncomputable section

namespace Cert.LibLanes

open Idealize.ShloMosaic Idealize.ShloMosaic.ValueIdx
open scoped BigOperators

/-- Two rank-2 indices with the same coordinates are one index. -/
theorem idx2_ext {n0 n1 : ℕ} (f g : (⟨2, ![n0, n1]⟩ : Shape).Idx) (h0 : (f 0).val = (g 0).val) (h1 : (f 1).val = (g 1).val) :
    f = g :=
  funext fun d => Fin.ext (by
    match d with
    | ⟨0, _⟩ => exact h0
    | ⟨1, _⟩ => exact h1)

/-- A contraction of the lanes of an [R, K] array with the lanes of an [N, K] array, read at (p, q): the sum over
    k of l(p, k) * r(q, k). The dimension record enters through four coordinate facts and the extent of its one
    contracted axis. -/
theorem contraction_lanes {R K N : ℕ} (d : DotDims ⟨2, ![R, K]⟩ ⟨2, ![N, K]⟩ ⟨2, ![R, N]⟩)
    (hrank : d.contr.rank = 1) (hsize : d.contr.size ⟨0, by omega⟩ = K)
    (hl0 : ∀ (i : (⟨2, ![R, N]⟩ : Shape).Idx) (s : d.contr.Idx), (d.lhsIdx i s 0).val = (i 0).val)
    (hl1 : ∀ (i : (⟨2, ![R, N]⟩ : Shape).Idx) (s : d.contr.Idx), (d.lhsIdx i s 1).val = (s ⟨0, by omega⟩).val)
    (hr0 : ∀ (i : (⟨2, ![R, N]⟩ : Shape).Idx) (s : d.contr.Idx), (d.rhsIdx i s 0).val = (i 1).val)
    (hr1 : ∀ (i : (⟨2, ![R, N]⟩ : Shape).Idx) (s : d.contr.Idx), (d.rhsIdx i s 1).val = (s ⟨0, by omega⟩).val)
    (l : (⟨2, ![R, K]⟩ : Shape).Idx → EReal) (r : (⟨2, ![N, K]⟩ : Shape).Idx → EReal) (p : Fin R) (q : Fin N) :
    ∑ s : d.contr.Idx, l (d.lhsIdx (ix2 p q) s) * r (d.rhsIdx (ix2 p q) s) = ∑ k : Fin K, l (ix2 p k) * r (ix2 q k) := by
  rw [← Equiv.sum_comp (contrEquiv1 d K hrank hsize).symm]
  refine Finset.sum_congr rfl fun k _ => ?_
  have hk := contrEquiv1_symm_val d K hrank hsize k
  have el : d.lhsIdx (ix2 p q) ((contrEquiv1 d K hrank hsize).symm k) = ix2 p k :=
    idx2_ext _ _ (hl0 _ _) ((hl1 _ _).trans hk)
  have er : d.rhsIdx (ix2 p q) ((contrEquiv1 d K hrank hsize).symm k) = ix2 q k :=
    idx2_ext _ _ (hr0 _ _) ((hr1 _ _).trans hk)
  rw [el, er]

/-- The matrix unit's product into a zero accumulator, read at (p, q). -/
theorem matmul_lanes {R K N : ℕ} (d : DotDims ⟨2, ![R, K]⟩ ⟨2, ![N, K]⟩ ⟨2, ![R, N]⟩)
    (hrank : d.contr.rank = 1) (hsize : d.contr.size ⟨0, by omega⟩ = K)
    (hl0 : ∀ (i : (⟨2, ![R, N]⟩ : Shape).Idx) (s : d.contr.Idx), (d.lhsIdx i s 0).val = (i 0).val)
    (hl1 : ∀ (i : (⟨2, ![R, N]⟩ : Shape).Idx) (s : d.contr.Idx), (d.lhsIdx i s 1).val = (s ⟨0, by omega⟩).val)
    (hr0 : ∀ (i : (⟨2, ![R, N]⟩ : Shape).Idx) (s : d.contr.Idx), (d.rhsIdx i s 0).val = (i 1).val)
    (hr1 : ∀ (i : (⟨2, ![R, N]⟩ : Shape).Idx) (s : d.contr.Idx), (d.rhsIdx i s 1).val = (s ⟨0, by omega⟩).val)
    {φ₁ φ₂ : FTy} (l : FVec Ideal ⟨2, ![R, K]⟩ φ₁) (r : FVec Ideal ⟨2, ![N, K]⟩ φ₂) (p : Fin R) (q : Fin N) :
    matmul d none l r (constant (F := Ideal) ⟨2, ![R, N]⟩ .f32 0x00000000#32) (ix2 p q)
      = ∑ k : Fin K, l (ix2 p k) * r (ix2 q k) :=
  (Ideal.matmul_constant_zero_apply d none l r (ix2 p q)).trans
    (contraction_lanes d hrank hsize hl0 hl1 hr0 hr1 l r p q)

/-- The host's dot_general, read at (p, q). -/
theorem hostdot_lanes {R K N : ℕ} (d : DotDims ⟨2, ![R, K]⟩ ⟨2, ![N, K]⟩ ⟨2, ![R, N]⟩)
    (hrank : d.contr.rank = 1) (hsize : d.contr.size ⟨0, by omega⟩ = K)
    (hl0 : ∀ (i : (⟨2, ![R, N]⟩ : Shape).Idx) (s : d.contr.Idx), (d.lhsIdx i s 0).val = (i 0).val)
    (hl1 : ∀ (i : (⟨2, ![R, N]⟩ : Shape).Idx) (s : d.contr.Idx), (d.lhsIdx i s 1).val = (s ⟨0, by omega⟩).val)
    (hr0 : ∀ (i : (⟨2, ![R, N]⟩ : Shape).Idx) (s : d.contr.Idx), (d.rhsIdx i s 0).val = (i 1).val)
    (hr1 : ∀ (i : (⟨2, ![R, N]⟩ : Shape).Idx) (s : d.contr.Idx), (d.rhsIdx i s 1).val = (s ⟨0, by omega⟩).val)
    (l : FVec Ideal ⟨2, ![R, K]⟩ .f32) (r : FVec Ideal ⟨2, ![N, K]⟩ .f32) (p : Fin R) (q : Fin N) :
    Host.dotGeneral d none l r (ix2 p q) = ∑ k : Fin K, l (ix2 p k) * r (ix2 q k) :=
  (Ideal.dotGeneral_apply d none .single l r (ix2 p q)).trans
    (contraction_lanes d hrank hsize hl0 hl1 hr0 hr1 l r p q)

end Cert.LibLanes

end
-- ==== Proof.Blocks.lean ====
/-
  The three dimension records of the kernels' matrix products, each contracting the lanes of an activation tile with the
  lanes of a weight tile: which coordinates of the output index and of the contraction index their operand indices take.
-/
import proofs.«177261_j1571958030520_2_alg».proof.Proof.Gen.KernelIdeal.Skeleton
import proofs.«177261_j1571958030520_2_alg».proof.Proof.Spec
import proofs.«177261_j1571958030520_2_alg».proof.Proof.LibLayout
import proofs.«177261_j1571958030520_2_alg».proof.Proof.LibLanes
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Blocks

open Cert.KernelIdeal Cert.KernelIdeal.Gen Idealize.ShloMosaic Idealize.ShloMosaic.ValueIdx Cert.Layer Cert.LibLanes
open scoped BigOperators

theorem lhs0_a (i : S256x2048.Idx) (s : dot_S256x2048_S2048x2048_S256x2048_1_1_0_0_n_n.contr.Idx) : (dot_S256x2048_S2048x2048_S256x2048_1_1_0_0_n_n.lhsIdx i s 0).val = (i 0).val := by
  unfold DotDims.lhsIdx
  rw [dif_neg (show ¬(0 : Fin S256x2048.rank) ∈ dot_S256x2048_S2048x2048_S256x2048_1_1_0_0_n_n.lhsBatch by decide), dif_pos (show (0 : Fin S256x2048.rank) ∈ dot_S256x2048_S2048x2048_S256x2048_1_1_0_0_n_n.lhsNonContracting by decide)]
  rfl
theorem lhs1_a (i : S256x2048.Idx) (s : dot_S256x2048_S2048x2048_S256x2048_1_1_0_0_n_n.contr.Idx) : (dot_S256x2048_S2048x2048_S256x2048_1_1_0_0_n_n.lhsIdx i s 1).val = (s ⟨0, by decide⟩).val :=
  dot_S256x2048_S2048x2048_S256x2048_1_1_0_0_n_n.lhsIdx_val_of_single rfl i s
theorem rhs0_a (i : S256x2048.Idx) (s : dot_S256x2048_S2048x2048_S256x2048_1_1_0_0_n_n.contr.Idx) : (dot_S256x2048_S2048x2048_S256x2048_1_1_0_0_n_n.rhsIdx i s 0).val = (i 1).val := by
  unfold DotDims.rhsIdx
  rw [dif_neg (show ¬(0 : Fin S2048x2048.rank) ∈ dot_S256x2048_S2048x2048_S256x2048_1_1_0_0_n_n.rhsBatch by decide), dif_pos (show (0 : Fin S2048x2048.rank) ∈ dot_S256x2048_S2048x2048_S256x2048_1_1_0_0_n_n.rhsNonContracting by decide)]
  rfl
theorem rhs1_a (i : S256x2048.Idx) (s : dot_S256x2048_S2048x2048_S256x2048_1_1_0_0_n_n.contr.Idx) : (dot_S256x2048_S2048x2048_S256x2048_1_1_0_0_n_n.rhsIdx i s 1).val = (s ⟨0, by decide⟩).val :=
  dot_S256x2048_S2048x2048_S256x2048_1_1_0_0_n_n.rhsIdx_val_of_single rfl i s

theorem lhs0_b (i : S512x1024.Idx) (s : dot_S512x2048_S1024x2048_S512x1024_1_1_0_0_n_n.contr.Idx) : (dot_S512x2048_S1024x2048_S512x1024_1_1_0_0_n_n.lhsIdx i s 0).val = (i 0).val := by
  unfold DotDims.lhsIdx
  rw [dif_neg (show ¬(0 : Fin S512x2048.rank) ∈ dot_S512x2048_S1024x2048_S512x1024_1_1_0_0_n_n.lhsBatch by decide), dif_pos (show (0 : Fin S512x2048.rank) ∈ dot_S512x2048_S1024x2048_S512x1024_1_1_0_0_n_n.lhsNonContracting by decide)]
  rfl
theorem lhs1_b (i : S512x1024.Idx) (s : dot_S512x2048_S1024x2048_S512x1024_1_1_0_0_n_n.contr.Idx) : (dot_S512x2048_S1024x2048_S512x1024_1_1_0_0_n_n.lhsIdx i s 1).val = (s ⟨0, by decide⟩).val :=
  dot_S512x2048_S1024x2048_S512x1024_1_1_0_0_n_n.lhsIdx_val_of_single rfl i s
theorem rhs0_b (i : S512x1024.Idx) (s : dot_S512x2048_S1024x2048_S512x1024_1_1_0_0_n_n.contr.Idx) : (dot_S512x2048_S1024x2048_S512x1024_1_1_0_0_n_n.rhsIdx i s 0).val = (i 1).val := by
  unfold DotDims.rhsIdx
  rw [dif_neg (show ¬(0 : Fin S1024x2048.rank) ∈ dot_S512x2048_S1024x2048_S512x1024_1_1_0_0_n_n.rhsBatch by decide), dif_pos (show (0 : Fin S1024x2048.rank) ∈ dot_S512x2048_S1024x2048_S512x1024_1_1_0_0_n_n.rhsNonContracting by decide)]
  rfl
theorem rhs1_b (i : S512x1024.Idx) (s : dot_S512x2048_S1024x2048_S512x1024_1_1_0_0_n_n.contr.Idx) : (dot_S512x2048_S1024x2048_S512x1024_1_1_0_0_n_n.rhsIdx i s 1).val = (s ⟨0, by decide⟩).val :=
  dot_S512x2048_S1024x2048_S512x1024_1_1_0_0_n_n.rhsIdx_val_of_single rfl i s

theorem lhs0_c (i : S512x256.Idx) (s : dot_S512x11264_S256x11264_S512x256_1_1_0_0_n_n.contr.Idx) : (dot_S512x11264_S256x11264_S512x256_1_1_0_0_n_n.lhsIdx i s 0).val = (i 0).val := by
  unfold DotDims.lhsIdx
  rw [dif_neg (show ¬(0 : Fin S512x11264.rank) ∈ dot_S512x11264_S256x11264_S512x256_1_1_0_0_n_n.lhsBatch by decide), dif_pos (show (0 : Fin S512x11264.rank) ∈ dot_S512x11264_S256x11264_S512x256_1_1_0_0_n_n.lhsNonContracting by decide)]
  rfl
theorem lhs1_c (i : S512x256.Idx) (s : dot_S512x11264_S256x11264_S512x256_1_1_0_0_n_n.contr.Idx) : (dot_S512x11264_S256x11264_S512x256_1_1_0_0_n_n.lhsIdx i s 1).val = (s ⟨0, by decide⟩).val :=
  dot_S512x11264_S256x11264_S512x256_1_1_0_0_n_n.lhsIdx_val_of_single rfl i s
theorem rhs0_c (i : S512x256.Idx) (s : dot_S512x11264_S256x11264_S512x256_1_1_0_0_n_n.contr.Idx) : (dot_S512x11264_S256x11264_S512x256_1_1_0_0_n_n.rhsIdx i s 0).val = (i 1).val := by
  unfold DotDims.rhsIdx
  rw [dif_neg (show ¬(0 : Fin S256x11264.rank) ∈ dot_S512x11264_S256x11264_S512x256_1_1_0_0_n_n.rhsBatch by decide), dif_pos (show (0 : Fin S256x11264.rank) ∈ dot_S512x11264_S256x11264_S512x256_1_1_0_0_n_n.rhsNonContracting by decide)]
  rfl
theorem rhs1_c (i : S512x256.Idx) (s : dot_S512x11264_S256x11264_S512x256_1_1_0_0_n_n.contr.Idx) : (dot_S512x11264_S256x11264_S512x256_1_1_0_0_n_n.rhsIdx i s 1).val = (s ⟨0, by decide⟩).val :=
  dot_S512x11264_S256x11264_S512x256_1_1_0_0_n_n.rhsIdx_val_of_single rfl i s

end Cert.KernelIdeal.Blocks

end
-- ==== Proof.Bodies.lean ====
/-
  What each kernel body leaves in its output tile, read at an entry (p, q), on extended reals: a normalized row entry,
  a product entry (with the residual entry added where the body adds one), a gated product entry.
-/
import proofs.«177261_j1571958030520_2_alg».proof.Proof.Blocks

noncomputable section

namespace Cert.KernelIdeal.Blocks

open Cert.KernelIdeal Cert.KernelIdeal.Gen Idealize.ShloMosaic Idealize.ShloMosaic.ValueIdx Cert.Layer Cert.LibLanes
open scoped BigOperators

/-- The normalization body at (p, q): row p of the activation tile normalized, at lane q, with the weight row's lane q. -/
theorem norm_block (x0 : Vec Ideal S256x2048 .f32) (x1 : Vec Ideal S1x2048 .f32) (p : Fin 256) (q : Fin 2048) :
    k0_pay1 (F := Ideal) x0 x1 (ix2 p q) = rowNorm (fun k => x0 (ix2 p k)) (x1 (ix2 (0 : Fin 1) q)) q := by
  have e1 : shapeCast S256x2048 x0 shapeCasts_S256x2048_S256x2048 = x0 := shapeCast_self _ _
  have e3 : shapeCast S1x2048 x1 shapeCasts_S1x2048_S1x2048 = x1 := shapeCast_self _ _
  have hs := Cert.LibLayout.laneSum_apply (mulf x0 x0) reduces_S256x2048_S256 (.inl rfl) rfl p
  unfold k0_pay1
  dsimp only
  rw [e1, e3]
  show x0 (ix2 p q) * (broadcastTo S256x2048 _ broadcasts_S256x1_S256x2048 (ix2 p q))
      * (broadcastTo S256x2048 x1 broadcasts_S1x2048_S256x2048 (ix2 p q)) = _
  rw [Cert.LibLayout.broadcastTo_a1_ab_apply, broadcastTo_1b_ab_apply]
  show x0 (ix2 p q) * Ideal.rsqrt (Ideal.div (shapeCast S256x1 _ shapeCasts_S256_S256x1 (ix2 p (0 : Fin 1)))
      (Ideal.ofBits .f32 0x45000000#32) + Ideal.ofBits .f32 0x358637BD#32) * x1 (ix2 (0 : Fin 1) q) = _
  rw [Cert.LibLayout.shapeCast_a_a1_apply]
  exact congrArg (fun s => x0 (ix2 p q) * Ideal.rsqrt (Ideal.div s (Ideal.ofBits .f32 0x45000000#32) + Ideal.ofBits .f32 0x358637BD#32) * x1 (ix2 (0 : Fin 1) q)) hs

/-- A projection body at (p, q): the lanes of row p of the activation tile against the lanes of row q of the weight tile. -/
theorem mm_block (x0 : Vec Ideal S256x2048 .bf16) (x1 : Vec Ideal S2048x2048 .bf16) (p : Fin 256) (q : Fin 2048) :
    k1_pay1 (F := Ideal) x0 x1 (ix2 p q) = ∑ k : Fin 2048, x0 (ix2 p k) * x1 (ix2 q k) := by
  have e1 : shapeCast S256x2048 x0 shapeCasts_S256x2048_S256x2048 = x0 := shapeCast_self _ _
  have e3 : shapeCast S2048x2048 x1 shapeCasts_S2048x2048_S2048x2048 = x1 := shapeCast_self _ _
  unfold k1_pay1
  try dsimp only
  rw [e1, e3]
  exact matmul_lanes (φ₁ := .bf16) (φ₂ := .bf16) dot_S256x2048_S2048x2048_S256x2048_1_1_0_0_n_n rfl rfl lhs0_a lhs1_a rhs0_a rhs1_a x0 x1 p q

/-- A projection body that adds a residual tile, at (p, q). -/
theorem mm_resid_block (x0 : Vec Ideal S256x2048 .bf16) (x1 : Vec Ideal S2048x2048 .bf16) (x2 : Vec Ideal S256x2048 .f32)
    (p : Fin 256) (q : Fin 2048) :
    k2_pay1 (F := Ideal) x0 x1 x2 (ix2 p q) = (∑ k : Fin 2048, x0 (ix2 p k) * x1 (ix2 q k)) + x2 (ix2 p q) := by
  have e1 : shapeCast S256x2048 x0 shapeCasts_S256x2048_S256x2048 = x0 := shapeCast_self _ _
  have e3 : shapeCast S2048x2048 x1 shapeCasts_S2048x2048_S2048x2048 = x1 := shapeCast_self _ _
  have e5 : shapeCast S256x2048 x2 shapeCasts_S256x2048_S256x2048 = x2 := shapeCast_self _ _
  unfold k2_pay1
  try dsimp only
  rw [e1, e3, e5]
  exact congrArg (· + x2 (ix2 p q))
    (matmul_lanes (φ₁ := .bf16) (φ₂ := .bf16) dot_S256x2048_S2048x2048_S256x2048_1_1_0_0_n_n rfl rfl lhs0_a lhs1_a rhs0_a rhs1_a x0 x1 p q)

/-- The gated body at (p, q): silu of the first product's entry times the second product's entry. -/
theorem gate_up_block (x0 : Vec Ideal S512x2048 .bf16) (x1 x2 : Vec Ideal S1024x2048 .bf16) (p : Fin 512) (q : Fin 1024) :
    k4_pay1 (F := Ideal) x0 x1 x2 (ix2 p q)
      = silu (∑ k : Fin 2048, x0 (ix2 p k) * x1 (ix2 q k)) * (∑ k : Fin 2048, x0 (ix2 p k) * x2 (ix2 q k)) := by
  have e1 : shapeCast S512x2048 x0 shapeCasts_S512x2048_S512x2048 = x0 := shapeCast_self _ _
  have e3 : shapeCast S1024x2048 x1 shapeCasts_S1024x2048_S1024x2048 = x1 := shapeCast_self _ _
  have e5 : shapeCast S1024x2048 x2 shapeCasts_S1024x2048_S1024x2048 = x2 := shapeCast_self _ _
  have h1 := matmul_lanes (φ₁ := .bf16) (φ₂ := .bf16) dot_S512x2048_S1024x2048_S512x1024_1_1_0_0_n_n rfl rfl lhs0_b lhs1_b rhs0_b rhs1_b x0 x1 p q
  have h2 := matmul_lanes (φ₁ := .bf16) (φ₂ := .bf16) dot_S512x2048_S1024x2048_S512x1024_1_1_0_0_n_n rfl rfl lhs0_b lhs1_b rhs0_b rhs1_b x0 x2 p q
  unfold k4_pay1
  try dsimp only
  rw [e1, e3, e5]
  show (matmul dot_S512x2048_S1024x2048_S512x1024_1_1_0_0_n_n none x0 x1 (constant (F := Ideal) S512x1024 .f32 0x00000000#32) (ix2 p q)
        * Ideal.logistic (matmul dot_S512x2048_S1024x2048_S512x1024_1_1_0_0_n_n none x0 x1 (constant (F := Ideal) S512x1024 .f32 0x00000000#32) (ix2 p q)))
      * matmul dot_S512x2048_S1024x2048_S512x1024_1_1_0_0_n_n none x0 x2 (constant (F := Ideal) S512x1024 .f32 0x00000000#32) (ix2 p q) = _
  rw [h1, h2]
  rfl

/-- The last projection body, which adds the residual tile, at (p, q): the contraction runs over all 11264 lanes. -/
theorem down_block (x0 : Vec Ideal S512x11264 .bf16) (x1 : Vec Ideal S256x11264 .bf16) (x2 : Vec Ideal S512x256 .f32)
    (p : Fin 512) (q : Fin 256) :
    k5_pay1 (F := Ideal) x0 x1 x2 (ix2 p q) = (∑ k : Fin 11264, x0 (ix2 p k) * x1 (ix2 q k)) + x2 (ix2 p q) := by
  have e1 : shapeCast S512x11264 x0 shapeCasts_S512x11264_S512x11264 = x0 := shapeCast_self _ _
  have e3 : shapeCast S256x11264 x1 shapeCasts_S256x11264_S256x11264 = x1 := shapeCast_self _ _
  have e5 : shapeCast S512x256 x2 shapeCasts_S512x256_S512x256 = x2 := shapeCast_self _ _
  unfold k5_pay1
  try dsimp only
  rw [e1, e3, e5]
  exact congrArg (· + x2 (ix2 p q))
    (matmul_lanes (φ₁ := .bf16) (φ₂ := .bf16) dot_S512x11264_S256x11264_S512x256_1_1_0_0_n_n rfl rfl lhs0_c lhs1_c rhs0_c rhs1_c x0 x1 p q)

end Cert.KernelIdeal.Blocks

end
-- ==== Proof.Region0.lean ====
/-
  The first normalization as a whole-array fact: whatever the buffers hold when the call is entered, its result array
  ends holding every row of the activation array normalized with the weight row. Tile t of the grid is rows
  256 t .. 256 t + 255; its write-back is that block of the normalized array, and the sixteen blocks cover the array.
-/
import proofs.«177261_j1571958030520_2_alg».proof.Proof.Gen.KernelIdeal.Frame
import proofs.«177261_j1571958030520_2_alg».proof.Proof.Bodies
import Idealize.ShloMosaic.Lib.Pipeline.Value

set_option maxRecDepth 16384

noncomputable section

open Idealize.ShloMosaic Idealize.ShloMosaic.TcCoe Idealize.SL.Sem
open Idealize.ShloMosaic.Pipeline (Dat)

namespace Cert.KernelIdeal.Regions

open Cert.KernelIdeal Cert.KernelIdeal.Gen Cert.KernelIdeal.Blocks Idealize.ShloMosaic.ValueIdx Cert.Layer Cert.LibLanes
open scoped BigOperators

variable (V : (c : Dev nD) → (b : Ref sig .tc) → Buf (Elt Ideal) ((c : Thread nD τ).loc b))

theorem hz : (![0, 0] : Fin 2 → Nat) = fun _ => 0 := funext fun a => by fin_cases a <;> rfl

/-- The block indices of the three windows at grid point t: the activation and result tiles move down the rows, the
    weight row stays. -/
theorem idx0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The activation tile at point t, read at (p, k), is the array at row 256 t + p, lane k. -/
theorem read0_0 (c : Dev nD) (t : Fin cfg0.N) (p : Fin 256) (k : Fin 2048) (i : S4096x2048.Idx)
    (h0 : (i 0).val = t.val * 256 + p.val) (h1 : (i 1).val = k.val) :
    (iblk0 V c 0 t : Vec Ideal S256x2048 .f32) (ix2 p k) = (V c main_v0 : S4096x2048.Idx → EReal) i := by
  obtain ⟨e00, e01, -⟩ := idx0 t
  show (V c main_v0 : S4096x2048.Idx → EReal) (((cfg0.win 0).blk t).view.emb (ix2 p k)) = _
  refine congrArg (V c main_v0 : S4096x2048.Idx → EReal) (idx2_ext _ _ ?_ ?_)
  · show win0_0.index t (0 : Fin 2) * 256 + 1 * p.val = (i 0).val
    omega
  · show win0_0.index t (1 : Fin 2) * 2048 + 1 * k.val = (i 1).val
    omega

/-- The weight tile at any point is the weight row. -/
theorem read0_1 (c : Dev nD) (t : Fin cfg0.N) (q : Fin 2048) :
    (iblk0 V c 1 t : Vec Ideal S1x2048 .f32) (ix2 (0 : Fin 1) q) = (V c main_v9 : S1x2048.Idx → EReal) (ix2 (0 : Fin 1) q) := by
  obtain ⟨-, -, e10, e11, -⟩ := idx0 t
  show (V c main_v9 : S1x2048.Idx → EReal) (((cfg0.win 1).blk t).view.emb (ix2 (0 : Fin 1) q)) = _
  refine congrArg (V c main_v9 : S1x2048.Idx → EReal) (idx2_ext _ _ ?_ ?_)
  · show win0_1.index t (0 : Fin 2) * 1 + 1 * 0 = 0
    omega
  · show win0_1.index t (1 : Fin 2) * 2048 + 1 * q.val = q.val
    omega

/-- The normalized array of region 0's entry contents. -/
abbrev G0 (c : Dev nD) : Mat 4096 2048 :=
  rmsNorm (V c main_v0 : S4096x2048.Idx → EReal) (fun j => (V c main_v9 : S1x2048.Idx → EReal) (ix2 (0 : Fin 1) j))

/-- What point t writes back is block t of the normalized array. -/
theorem flushed0 (c : Dev nD) (t : Fin cfg0.N) :
    (dat0 V c).flushed 2 t = ((cfg0.win 2).blk t).view.read (Elt Ideal) (G0 V c) := by
  show (cfg0.win 2).cut (grid0.coords t) ((dat0 V c).after 2 t) = _
  rw [after0_2]
  unfold out0_2
  rw [View.canon_unit_zero hz]
  simp only [View.ld_unit_zero (S := S256x2048) hz, View.ld_unit_zero (S := S1x2048) hz]
  obtain ⟨-, -, -, -, e20, e21⟩ := idx0 t
  funext y
  obtain ⟨p, q, rfl⟩ : ∃ (p : Fin 256) (q : Fin 2048), y = ix2 p q := ⟨y 0, y 1, eq_ix2 y⟩
  show k0_pay1 (iblk0 V c 0 t) (iblk0 V c 1 t) (ix2 p q) = G0 V c (((cfg0.win 2).blk t).view.emb (ix2 p q))
  rw [norm_block]
  have hq : (((cfg0.win 2).blk t).view.emb (ix2 p q) : S4096x2048.Idx) 1 = q :=
    Fin.ext (by show win0_2.index t (1 : Fin 2) * 2048 + 1 * q.val = q.val; omega)
  unfold G0 rmsNorm
  rw [hq, read0_1 V c t q]
  refine congrArg (fun f => rowNorm f _ q) (funext fun k => ?_)
  exact read0_0 V c t p k _ (by show win0_2.index t (0 : Fin 2) * 256 + 1 * p.val = t.val * 256 + p.val; omega) rfl

/-- An index of the result array is in point t's block iff each coordinate is in the block's range. -/
theorem mem_blk0 (t : Fin cfg0.N) (i : S4096x2048.Idx) :
    i ∈ ((cfg0.win 2).blk t).view.set ↔ ∀ a : Fin 2, win0_2.index t a * S256x2048.size a ≤ (i a).val
      ∧ (i a).val < win0_2.index t a * S256x2048.size a + S256x2048.size a := by
  show i ∈ ((View.whole main_v10).slice (win0_2.rect t)).set ↔ _
  rw [View.set_slice_whole, Rect.mem_set_unit]
  exact Iff.rfl

/-- Row r lies in the block of point r / 256. -/
theorem cover0 (i : S4096x2048.Idx) : ∃ t : Fin cfg0.N, (cfg0.win 2).flush t = true ∧ i ∈ ((cfg0.win 2).blk t).view.set := by
  have hi0 : (i 0).val < 4096 := (i 0).isLt
  have hi1 : (i 1).val < 2048 := (i 1).isLt
  have hN : cfg0.N = 16 := N_0
  have ht : (i 0).val / 256 < cfg0.N := by rw [hN]; omega
  obtain ⟨-, -, -, -, e20, e21⟩ := idx0 ⟨(i 0).val / 256, ht⟩
  refine ⟨⟨(i 0).val / 256, ht⟩, flush0_2 _, ?_⟩
  rw [mem_blk0]
  intro a
  match a with
  | ⟨0, _⟩ =>
    show win0_2.index ⟨(i 0).val / 256, ht⟩ (0 : Fin 2) * 256 ≤ (i 0).val
      ∧ (i 0).val < win0_2.index ⟨(i 0).val / 256, ht⟩ (0 : Fin 2) * 256 + 256
    rw [e20]
    show (i 0).val / 256 * 256 ≤ (i 0).val ∧ (i 0).val < (i 0).val / 256 * 256 + 256
    omega
  | ⟨1, _⟩ =>
    show win0_2.index ⟨(i 0).val / 256, ht⟩ (1 : Fin 2) * 2048 ≤ (i 1).val
      ∧ (i 1).val < win0_2.index ⟨(i 0).val / 256, ht⟩ (1 : Fin 2) * 2048 + 2048
    rw [e21]
    omega

/-- THE RESULT ARRAY of the first normalization, after the call: the entry activations normalized row by row. -/
theorem final0 (c : Dev nD) : (dat0 V c).arrAt 2 cfg0.N = G0 V c :=
  (dat0 V c).arrAt_eq_of_cover 2 (G0 V c) (fun t _ => flushed0 V c t) (cover0)

/-- The two operand arrays are as the call found them. -/
theorem kept0_0 (c : Dev nD) : (dat0 V c).arrAt 0 cfg0.N = V c main_v0 :=
  ((dat0 V c).arrAt_in 0 rfl cfg0.N).trans (A_eq0 V c 0)
theorem kept0_1 (c : Dev nD) : (dat0 V c).arrAt 1 cfg0.N = V c main_v9 :=
  ((dat0 V c).arrAt_in 1 rfl cfg0.N).trans (A_eq0 V c 1)

end Cert.KernelIdeal.Regions

end
-- ==== Proof.Region1.lean ====
/-
  The query projection as a whole-array fact: whatever the buffers hold when the call is entered, its result array ends
  holding the product of the activation array with the transposed weight array. Tile t is rows 256 t .. 256 t + 255 of
  the activations against the whole weight array.
-/
import proofs.«177261_j1571958030520_2_alg».proof.Proof.Gen.KernelIdeal.Frame
import proofs.«177261_j1571958030520_2_alg».proof.Proof.Region0
import Idealize.ShloMosaic.Lib.Pipeline.Value

set_option maxRecDepth 16384

noncomputable section

open Idealize.ShloMosaic Idealize.ShloMosaic.TcCoe Idealize.SL.Sem
open Idealize.ShloMosaic.Pipeline (Dat)

namespace Cert.KernelIdeal.Regions

open Cert.KernelIdeal Cert.KernelIdeal.Gen Cert.KernelIdeal.Blocks Idealize.ShloMosaic.ValueIdx Cert.Layer Cert.LibLanes
open scoped BigOperators

variable (V : (c : Dev nD) → (b : Ref sig .tc) → Buf (Elt Ideal) ((c : Thread nD τ).loc b))

/-- The activation tile moves down the rows. -/
theorem idx1_0 : ∀ t : Fin cfg1.N, win1_0.index t (0 : Fin 2) = t.val ∧ win1_0.index t (1 : Fin 2) = 0 :=
  (by decide +kernel : ∀ t : Fin grid1.N, _)

theorem read1_0 (c : Dev nD) (t : Fin cfg1.N) (p : Fin 256) (k : Fin 2048) (i : S4096x2048.Idx)
    (h0 : (i 0).val = t.val * 256 + p.val) (h1 : (i 1).val = 0 * 2048 + k.val) :
    (iblk1 V c 0 t : Vec Ideal S256x2048 .bf16) (ix2 p k) = (V c main_v10 : S4096x2048.Idx → EReal) i := by
  obtain ⟨e0, e1⟩ := idx1_0 t
  show (V c main_v10 : S4096x2048.Idx → EReal) (((cfg1.win 0).blk t).view.emb (ix2 p k)) = _
  refine congrArg (V c main_v10 : S4096x2048.Idx → EReal) (idx2_ext _ _ ?_ ?_)
  · show win1_0.index t (0 : Fin 2) * 256 + 1 * p.val = (i 0).val
    omega
  · show win1_0.index t (1 : Fin 2) * 2048 + 1 * k.val = (i 1).val
    omega

/-- The weight tile is the whole weight array at every point. -/
theorem idx1_1 : ∀ t : Fin cfg1.N, win1_1.index t (0 : Fin 2) = 0 ∧ win1_1.index t (1 : Fin 2) = 0 :=
  (by decide +kernel : ∀ t : Fin grid1.N, _)

theorem read1_1 (c : Dev nD) (t : Fin cfg1.N) (p : Fin 2048) (k : Fin 2048) (i : S2048x2048.Idx)
    (h0 : (i 0).val = 0 * 2048 + p.val) (h1 : (i 1).val = 0 * 2048 + k.val) :
    (iblk1 V c 1 t : Vec Ideal S2048x2048 .bf16) (ix2 p k) = (V c main_v1 : S2048x2048.Idx → EReal) i := by
  obtain ⟨e0, e1⟩ := idx1_1 t
  show (V c main_v1 : S2048x2048.Idx → EReal) (((cfg1.win 1).blk t).view.emb (ix2 p k)) = _
  refine congrArg (V c main_v1 : S2048x2048.Idx → EReal) (idx2_ext _ _ ?_ ?_)
  · show win1_1.index t (0 : Fin 2) * 2048 + 1 * p.val = (i 0).val
    omega
  · show win1_1.index t (1 : Fin 2) * 2048 + 1 * k.val = (i 1).val
    omega

theorem idx1_2 : ∀ t : Fin cfg1.N, win1_2.index t (0 : Fin 2) = t.val ∧ win1_2.index t (1 : Fin 2) = 0 :=
  (by decide +kernel : ∀ t : Fin grid1.N, _)

/-- The product of region 1's entry contents. -/
abbrev G1 (c : Dev nD) : Mat 4096 2048 :=
  mmT (V c main_v10 : S4096x2048.Idx → EReal) (V c main_v1 : S2048x2048.Idx → EReal)

/-- What point t writes back is block t of the product. -/
theorem flushed1 (c : Dev nD) (t : Fin cfg1.N) :
    (dat1 V c).flushed 2 t = ((cfg1.win 2).blk t).view.read (Elt Ideal) (G1 V c) := by
  show (cfg1.win 2).cut (grid1.coords t) ((dat1 V c).after 2 t) = _
  rw [after1_2]
  unfold out1_2
  rw [View.canon_unit_zero hz]
  simp only [View.ld_unit_zero (S := S256x2048) hz, View.ld_unit_zero (S := S2048x2048) hz]
  obtain ⟨e20, e21⟩ := idx1_2 t
  funext y
  obtain ⟨p, q, rfl⟩ : ∃ (p : Fin 256) (q : Fin 2048), y = ix2 p q := ⟨y 0, y 1, eq_ix2 y⟩
  show k1_pay1 (iblk1 V c 0 t) (iblk1 V c 1 t) (ix2 p q) = G1 V c (((cfg1.win 2).blk t).view.emb (ix2 p q))
  rw [mm_block]
  unfold G1 mmT
  refine Finset.sum_congr rfl fun k _ => ?_
  rw [read1_0 V c t p k (ix2 ((((cfg1.win 2).blk t).view.emb (ix2 p q) : S4096x2048.Idx) 0) k)
      (by show win1_2.index t (0 : Fin 2) * 256 + 1 * p.val = t.val * 256 + p.val; omega) (by show k.val = 0 * 2048 + k.val; omega),
    read1_1 V c t q k (ix2 ((((cfg1.win 2).blk t).view.emb (ix2 p q) : S4096x2048.Idx) 1) k)
      (by show win1_2.index t (1 : Fin 2) * 2048 + 1 * q.val = 0 * 2048 + q.val; omega) (by show k.val = 0 * 2048 + k.val; omega)]

/-- An index of the result array is in point t's block iff each coordinate is in the block's range. -/
theorem mem_blk1 (t : Fin cfg1.N) (i : S4096x2048.Idx) :
    i ∈ ((cfg1.win 2).blk t).view.set ↔ ∀ a : Fin 2, win1_2.index t a * S256x2048.size a ≤ (i a).val
      ∧ (i a).val < win1_2.index t a * S256x2048.size a + S256x2048.size a := by
  show i ∈ ((View.whole main_v11).slice (win1_2.rect t)).set ↔ _
  rw [View.set_slice_whole, Rect.mem_set_unit]
  exact Iff.rfl

/-- Row r lies in the block of point r / 256. -/
theorem cover1 (i : S4096x2048.Idx) : ∃ t : Fin cfg1.N, (cfg1.win 2).flush t = true ∧ i ∈ ((cfg1.win 2).blk t).view.set := by
  have hi0 : (i 0).val < 4096 := (i 0).isLt
  have hi1 : (i 1).val < 2048 := (i 1).isLt
  have hN : cfg1.N = 16 := N_1
  have ht : (i 0).val / 256 < cfg1.N := by rw [hN]; omega
  obtain ⟨e0, e1⟩ := idx1_2 ⟨(i 0).val / 256, ht⟩
  refine ⟨⟨(i 0).val / 256, ht⟩, flush1_2 _, ?_⟩
  rw [mem_blk1]
  intro a
  match a with
  | ⟨0, _⟩ =>
    show win1_2.index ⟨(i 0).val / 256, ht⟩ (0 : Fin 2) * 256 ≤ (i 0).val
      ∧ (i 0).val < win1_2.index ⟨(i 0).val / 256, ht⟩ (0 : Fin 2) * 256 + 256
    rw [e0]
    show (((i 0).val / 256)) * 256 ≤ (i 0).val ∧ (i 0).val < (((i 0).val / 256)) * 256 + 256
    omega
  | ⟨1, _⟩ =>
    show win1_2.index ⟨(i 0).val / 256, ht⟩ (1 : Fin 2) * 2048 ≤ (i 1).val
      ∧ (i 1).val < win1_2.index ⟨(i 0).val / 256, ht⟩ (1 : Fin 2) * 2048 + 2048
    rw [e1]
    show (0) * 2048 ≤ (i 1).val ∧ (i 1).val < (0) * 2048 + 2048
    omega

/-- THE RESULT ARRAY after the call. -/
theorem final1 (c : Dev nD) : (dat1 V c).arrAt 2 cfg1.N = G1 V c :=
  (dat1 V c).arrAt_eq_of_cover 2 (G1 V c) (fun t _ => flushed1 V c t) (cover1)
theorem kept1_0 (c : Dev nD) : (dat1 V c).arrAt 0 cfg1.N = V c main_v10 :=
  ((dat1 V c).arrAt_in 0 rfl cfg1.N).trans (A_eq1 V c 0)
theorem kept1_1 (c : Dev nD) : (dat1 V c).arrAt 1 cfg1.N = V c main_v1 :=
  ((dat1 V c).arrAt_in 1 rfl cfg1.N).trans (A_eq1 V c 1)

end Cert.KernelIdeal.Regions

end
-- ==== Proof.Region2.lean ====
/-
  The output projection with the residual as a whole-array fact: its result array ends holding the product of the
  activation array with the transposed weight array plus the residual array, entry by entry. Tile t is rows
  256 t .. 256 t + 255 of the activations and of the residual against the whole weight array.
-/
import proofs.«177261_j1571958030520_2_alg».proof.Proof.Gen.KernelIdeal.Frame
import proofs.«177261_j1571958030520_2_alg».proof.Proof.Region0
import Idealize.ShloMosaic.Lib.Pipeline.Value

set_option maxRecDepth 16384

noncomputable section

open Idealize.ShloMosaic Idealize.ShloMosaic.TcCoe Idealize.SL.Sem
open Idealize.ShloMosaic.Pipeline (Dat)

namespace Cert.KernelIdeal.Regions

open Cert.KernelIdeal Cert.KernelIdeal.Gen Cert.KernelIdeal.Blocks Idealize.ShloMosaic.ValueIdx Cert.Layer Cert.LibLanes
open scoped BigOperators

variable (V : (c : Dev nD) → (b : Ref sig .tc) → Buf (Elt Ideal) ((c : Thread nD τ).loc b))

/-- The activation tile moves down the rows. -/
theorem idx2_0 : ∀ t : Fin cfg2.N, win2_0.index t (0 : Fin 2) = t.val ∧ win2_0.index t (1 : Fin 2) = 0 :=
  (by decide +kernel : ∀ t : Fin grid2.N, _)

theorem read2_0 (c : Dev nD) (t : Fin cfg2.N) (p : Fin 256) (k : Fin 2048) (i : S4096x2048.Idx)
    (h0 : (i 0).val = t.val * 256 + p.val) (h1 : (i 1).val = 0 * 2048 + k.val) :
    (iblk2 V c 0 t : Vec Ideal S256x2048 .bf16) (ix2 p k) = (V c main_v11 : S4096x2048.Idx → EReal) i := by
  obtain ⟨e0, e1⟩ := idx2_0 t
  show (V c main_v11 : S4096x2048.Idx → EReal) (((cfg2.win 0).blk t).view.emb (ix2 p k)) = _
  refine congrArg (V c main_v11 : S4096x2048.Idx → EReal) (idx2_ext _ _ ?_ ?_)
  · show win2_0.index t (0 : Fin 2) * 256 + 1 * p.val = (i 0).val
    omega
  · show win2_0.index t (1 : Fin 2) * 2048 + 1 * k.val = (i 1).val
    omega

/-- The weight tile is the whole weight array at every point. -/
theorem idx2_1 : ∀ t : Fin cfg2.N, win2_1.index t (0 : Fin 2) = 0 ∧ win2_1.index t (1 : Fin 2) = 0 :=
  (by decide +kernel : ∀ t : Fin grid2.N, _)

theorem read2_1 (c : Dev nD) (t : Fin cfg2.N) (p : Fin 2048) (k : Fin 2048) (i : S2048x2048.Idx)
    (h0 : (i 0).val = 0 * 2048 + p.val) (h1 : (i 1).val = 0 * 2048 + k.val) :
    (iblk2 V c 1 t : Vec Ideal S2048x2048 .bf16) (ix2 p k) = (V c main_v2 : S2048x2048.Idx → EReal) i := by
  obtain ⟨e0, e1⟩ := idx2_1 t
  show (V c main_v2 : S2048x2048.Idx → EReal) (((cfg2.win 1).blk t).view.emb (ix2 p k)) = _
  refine congrArg (V c main_v2 : S2048x2048.Idx → EReal) (idx2_ext _ _ ?_ ?_)
  · show win2_1.index t (0 : Fin 2) * 2048 + 1 * p.val = (i 0).val
    omega
  · show win2_1.index t (1 : Fin 2) * 2048 + 1 * k.val = (i 1).val
    omega

/-- The residual tile moves with the activation tile. -/
theorem idx2_2 : ∀ t : Fin cfg2.N, win2_2.index t (0 : Fin 2) = t.val ∧ win2_2.index t (1 : Fin 2) = 0 :=
  (by decide +kernel : ∀ t : Fin grid2.N, _)

theorem read2_2 (c : Dev nD) (t : Fin cfg2.N) (p : Fin 256) (k : Fin 2048) (i : S4096x2048.Idx)
    (h0 : (i 0).val = t.val * 256 + p.val) (h1 : (i 1).val = 0 * 2048 + k.val) :
    (iblk2 V c 2 t : Vec Ideal S256x2048 .f32) (ix2 p k) = (V c main_v0 : S4096x2048.Idx → EReal) i := by
  obtain ⟨e0, e1⟩ := idx2_2 t
  show (V c main_v0 : S4096x2048.Idx → EReal) (((cfg2.win 2).blk t).view.emb (ix2 p k)) = _
  refine congrArg (V c main_v0 : S4096x2048.Idx → EReal) (idx2_ext _ _ ?_ ?_)
  · show win2_2.index t (0 : Fin 2) * 256 + 1 * p.val = (i 0).val
    omega
  · show win2_2.index t (1 : Fin 2) * 2048 + 1 * k.val = (i 1).val
    omega

theorem idx2_3 : ∀ t : Fin cfg2.N, win2_3.index t (0 : Fin 2) = t.val ∧ win2_3.index t (1 : Fin 2) = 0 :=
  (by decide +kernel : ∀ t : Fin grid2.N, _)

/-- The product plus the residual, of region 2's entry contents. -/
abbrev G2 (c : Dev nD) : Mat 4096 2048 :=
  addM (mmT (V c main_v11 : S4096x2048.Idx → EReal) (V c main_v2 : S2048x2048.Idx → EReal)) (V c main_v0 : S4096x2048.Idx → EReal)

/-- What point t writes back is block t of that array. -/
theorem flushed2 (c : Dev nD) (t : Fin cfg2.N) :
    (dat2 V c).flushed 3 t = ((cfg2.win 3).blk t).view.read (Elt Ideal) (G2 V c) := by
  show (cfg2.win 3).cut (grid2.coords t) ((dat2 V c).after 3 t) = _
  rw [after2_3]
  unfold out2_3
  rw [View.canon_unit_zero hz]
  simp only [View.ld_unit_zero (S := S256x2048) hz, View.ld_unit_zero (S := S2048x2048) hz]
  obtain ⟨e30, e31⟩ := idx2_3 t
  funext y
  obtain ⟨p, q, rfl⟩ : ∃ (p : Fin 256) (q : Fin 2048), y = ix2 p q := ⟨y 0, y 1, eq_ix2 y⟩
  show k2_pay1 (iblk2 V c 0 t) (iblk2 V c 1 t) (iblk2 V c 2 t) (ix2 p q) = G2 V c (((cfg2.win 3).blk t).view.emb (ix2 p q))
  rw [mm_resid_block]
  unfold G2 addM mmT
  rw [read2_2 V c t p q (((cfg2.win 3).blk t).view.emb (ix2 p q) : S4096x2048.Idx)
      (by show win2_3.index t (0 : Fin 2) * 256 + 1 * p.val = t.val * 256 + p.val; omega)
      (by show win2_3.index t (1 : Fin 2) * 2048 + 1 * q.val = 0 * 2048 + q.val; omega)]
  refine congrArg (· + _) (Finset.sum_congr rfl fun k _ => ?_)
  rw [read2_0 V c t p k (ix2 ((((cfg2.win 3).blk t).view.emb (ix2 p q) : S4096x2048.Idx) 0) k)
      (by show win2_3.index t (0 : Fin 2) * 256 + 1 * p.val = t.val * 256 + p.val; omega) (by show k.val = 0 * 2048 + k.val; omega),
    read2_1 V c t q k (ix2 ((((cfg2.win 3).blk t).view.emb (ix2 p q) : S4096x2048.Idx) 1) k)
      (by show win2_3.index t (1 : Fin 2) * 2048 + 1 * q.val = 0 * 2048 + q.val; omega) (by show k.val = 0 * 2048 + k.val; omega)]

/-- An index of the result array is in point t's block iff each coordinate is in the block's range. -/
theorem mem_blk2 (t : Fin cfg2.N) (i : S4096x2048.Idx) :
    i ∈ ((cfg2.win 3).blk t).view.set ↔ ∀ a : Fin 2, win2_3.index t a * S256x2048.size a ≤ (i a).val
      ∧ (i a).val < win2_3.index t a * S256x2048.size a + S256x2048.size a := by
  show i ∈ ((View.whole main_v12).slice (win2_3.rect t)).set ↔ _
  rw [View.set_slice_whole, Rect.mem_set_unit]
  exact Iff.rfl

/-- Row r lies in the block of point r / 256. -/
theorem cover2 (i : S4096x2048.Idx) : ∃ t : Fin cfg2.N, (cfg2.win 3).flush t = true ∧ i ∈ ((cfg2.win 3).blk t).view.set := by
  have hi0 : (i 0).val < 4096 := (i 0).isLt
  have hi1 : (i 1).val < 2048 := (i 1).isLt
  have hN : cfg2.N = 16 := N_2
  have ht : (i 0).val / 256 < cfg2.N := by rw [hN]; omega
  obtain ⟨e0, e1⟩ := idx2_3 ⟨(i 0).val / 256, ht⟩
  refine ⟨⟨(i 0).val / 256, ht⟩, flush2_3 _, ?_⟩
  rw [mem_blk2]
  intro a
  match a with
  | ⟨0, _⟩ =>
    show win2_3.index ⟨(i 0).val / 256, ht⟩ (0 : Fin 2) * 256 ≤ (i 0).val
      ∧ (i 0).val < win2_3.index ⟨(i 0).val / 256, ht⟩ (0 : Fin 2) * 256 + 256
    rw [e0]
    show (((i 0).val / 256)) * 256 ≤ (i 0).val ∧ (i 0).val < (((i 0).val / 256)) * 256 + 256
    omega
  | ⟨1, _⟩ =>
    show win2_3.index ⟨(i 0).val / 256, ht⟩ (1 : Fin 2) * 2048 ≤ (i 1).val
      ∧ (i 1).val < win2_3.index ⟨(i 0).val / 256, ht⟩ (1 : Fin 2) * 2048 + 2048
    rw [e1]
    show (0) * 2048 ≤ (i 1).val ∧ (i 1).val < (0) * 2048 + 2048
    omega

/-- THE RESULT ARRAY after the call. -/
theorem final2 (c : Dev nD) : (dat2 V c).arrAt 3 cfg2.N = G2 V c :=
  (dat2 V c).arrAt_eq_of_cover 3 (G2 V c) (fun t _ => flushed2 V c t) (cover2)
theorem kept2_0 (c : Dev nD) : (dat2 V c).arrAt 0 cfg2.N = V c main_v11 :=
  ((dat2 V c).arrAt_in 0 rfl cfg2.N).trans (A_eq2 V c 0)
theorem kept2_1 (c : Dev nD) : (dat2 V c).arrAt 1 cfg2.N = V c main_v2 :=
  ((dat2 V c).arrAt_in 1 rfl cfg2.N).trans (A_eq2 V c 1)
theorem kept2_2 (c : Dev nD) : (dat2 V c).arrAt 2 cfg2.N = V c main_v0 :=
  ((dat2 V c).arrAt_in 2 rfl cfg2.N).trans (A_eq2 V c 2)

end Cert.KernelIdeal.Regions

end
-- ==== Proof.Region3.lean ====
/-
  The second normalization as a whole-array fact: its result array ends holding every row of the residual stream
  normalized with the second weight row. Tile t is rows 256 t .. 256 t + 255.
-/
import proofs.«177261_j1571958030520_2_alg».proof.Proof.Gen.KernelIdeal.Frame
import proofs.«177261_j1571958030520_2_alg».proof.Proof.Region0
import Idealize.ShloMosaic.Lib.Pipeline.Value

set_option maxRecDepth 16384

noncomputable section

open Idealize.ShloMosaic Idealize.ShloMosaic.TcCoe Idealize.SL.Sem
open Idealize.ShloMosaic.Pipeline (Dat)

namespace Cert.KernelIdeal.Regions

open Cert.KernelIdeal Cert.KernelIdeal.Gen Cert.KernelIdeal.Blocks Idealize.ShloMosaic.ValueIdx Cert.Layer Cert.LibLanes
open scoped BigOperators

variable (V : (c : Dev nD) → (b : Ref sig .tc) → Buf (Elt Ideal) ((c : Thread nD τ).loc b))

/-- The activation tile moves down the rows. -/
theorem idx3_0 : ∀ t : Fin cfg3.N, win3_0.index t (0 : Fin 2) = t.val ∧ win3_0.index t (1 : Fin 2) = 0 :=
  (by decide +kernel : ∀ t : Fin grid3.N, _)

theorem read3_0 (c : Dev nD) (t : Fin cfg3.N) (p : Fin 256) (k : Fin 2048) (i : S4096x2048.Idx)
    (h0 : (i 0).val = t.val * 256 + p.val) (h1 : (i 1).val = 0 * 2048 + k.val) :
    (iblk3 V c 0 t : Vec Ideal S256x2048 .f32) (ix2 p k) = (V c main_v12 : S4096x2048.Idx → EReal) i := by
  obtain ⟨e0, e1⟩ := idx3_0 t
  show (V c main_v12 : S4096x2048.Idx → EReal) (((cfg3.win 0).blk t).view.emb (ix2 p k)) = _
  refine congrArg (V c main_v12 : S4096x2048.Idx → EReal) (idx2_ext _ _ ?_ ?_)
  · show win3_0.index t (0 : Fin 2) * 256 + 1 * p.val = (i 0).val
    omega
  · show win3_0.index t (1 : Fin 2) * 2048 + 1 * k.val = (i 1).val
    omega

/-- The weight tile is the weight row at every point. -/
theorem idx3_1 : ∀ t : Fin cfg3.N, win3_1.index t (0 : Fin 2) = 0 ∧ win3_1.index t (1 : Fin 2) = 0 :=
  (by decide +kernel : ∀ t : Fin grid3.N, _)

theorem read3_1 (c : Dev nD) (t : Fin cfg3.N) (p : Fin 1) (k : Fin 2048) (i : S1x2048.Idx)
    (h0 : (i 0).val = 0 * 1 + p.val) (h1 : (i 1).val = 0 * 2048 + k.val) :
    (iblk3 V c 1 t : Vec Ideal S1x2048 .f32) (ix2 p k) = (V c main_v13 : S1x2048.Idx → EReal) i := by
  obtain ⟨e0, e1⟩ := idx3_1 t
  show (V c main_v13 : S1x2048.Idx → EReal) (((cfg3.win 1).blk t).view.emb (ix2 p k)) = _
  refine congrArg (V c main_v13 : S1x2048.Idx → EReal) (idx2_ext _ _ ?_ ?_)
  · show win3_1.index t (0 : Fin 2) * 1 + 1 * p.val = (i 0).val
    omega
  · show win3_1.index t (1 : Fin 2) * 2048 + 1 * k.val = (i 1).val
    omega

theorem idx3_2 : ∀ t : Fin cfg3.N, win3_2.index t (0 : Fin 2) = t.val ∧ win3_2.index t (1 : Fin 2) = 0 :=
  (by decide +kernel : ∀ t : Fin grid3.N, _)

/-- The normalized array of region 3's entry contents. -/
abbrev G3 (c : Dev nD) : Mat 4096 2048 :=
  rmsNorm (V c main_v12 : S4096x2048.Idx → EReal) (fun j => (V c main_v13 : S1x2048.Idx → EReal) (ix2 (0 : Fin 1) j))

/-- What point t writes back is block t of the normalized array. -/
theorem flushed3 (c : Dev nD) (t : Fin cfg3.N) :
    (dat3 V c).flushed 2 t = ((cfg3.win 2).blk t).view.read (Elt Ideal) (G3 V c) := by
  show (cfg3.win 2).cut (grid3.coords t) ((dat3 V c).after 2 t) = _
  rw [after3_2]
  unfold out3_2
  rw [View.canon_unit_zero hz]
  simp only [View.ld_unit_zero (S := S256x2048) hz, View.ld_unit_zero (S := S1x2048) hz]
  obtain ⟨e20, e21⟩ := idx3_2 t
  funext y
  obtain ⟨p, q, rfl⟩ : ∃ (p : Fin 256) (q : Fin 2048), y = ix2 p q := ⟨y 0, y 1, eq_ix2 y⟩
  show k0_pay1 (iblk3 V c 0 t) (iblk3 V c 1 t) (ix2 p q) = G3 V c (((cfg3.win 2).blk t).view.emb (ix2 p q))
  rw [norm_block]
  have hq : (((cfg3.win 2).blk t).view.emb (ix2 p q) : S4096x2048.Idx) 1 = q :=
    Fin.ext (by show win3_2.index t (1 : Fin 2) * 2048 + 1 * q.val = q.val; omega)
  unfold G3 rmsNorm
  rw [hq, read3_1 V c t (0 : Fin 1) q (ix2 (0 : Fin 1) q) (by show (0 : ℕ) = 0 * 1 + 0; omega) (by show q.val = 0 * 2048 + q.val; omega)]
  refine congrArg (fun f => rowNorm f _ q) (funext fun k => ?_)
  exact read3_0 V c t p k _ (by show win3_2.index t (0 : Fin 2) * 256 + 1 * p.val = t.val * 256 + p.val; omega)
    (by show k.val = 0 * 2048 + k.val; omega)

/-- An index of the result array is in point t's block iff each coordinate is in the block's range. -/
theorem mem_blk3 (t : Fin cfg3.N) (i : S4096x2048.Idx) :
    i ∈ ((cfg3.win 2).blk t).view.set ↔ ∀ a : Fin 2, win3_2.index t a * S256x2048.size a ≤ (i a).val
      ∧ (i a).val < win3_2.index t a * S256x2048.size a + S256x2048.size a := by
  show i ∈ ((View.whole main_v14).slice (win3_2.rect t)).set ↔ _
  rw [View.set_slice_whole, Rect.mem_set_unit]
  exact Iff.rfl

/-- Row r lies in the block of point r / 256. -/
theorem cover3 (i : S4096x2048.Idx) : ∃ t : Fin cfg3.N, (cfg3.win 2).flush t = true ∧ i ∈ ((cfg3.win 2).blk t).view.set := by
  have hi0 : (i 0).val < 4096 := (i 0).isLt
  have hi1 : (i 1).val < 2048 := (i 1).isLt
  have hN : cfg3.N = 16 := N_3
  have ht : (i 0).val / 256 < cfg3.N := by rw [hN]; omega
  obtain ⟨e0, e1⟩ := idx3_2 ⟨(i 0).val / 256, ht⟩
  refine ⟨⟨(i 0).val / 256, ht⟩, flush3_2 _, ?_⟩
  rw [mem_blk3]
  intro a
  match a with
  | ⟨0, _⟩ =>
    show win3_2.index ⟨(i 0).val / 256, ht⟩ (0 : Fin 2) * 256 ≤ (i 0).val
      ∧ (i 0).val < win3_2.index ⟨(i 0).val / 256, ht⟩ (0 : Fin 2) * 256 + 256
    rw [e0]
    show (((i 0).val / 256)) * 256 ≤ (i 0).val ∧ (i 0).val < (((i 0).val / 256)) * 256 + 256
    omega
  | ⟨1, _⟩ =>
    show win3_2.index ⟨(i 0).val / 256, ht⟩ (1 : Fin 2) * 2048 ≤ (i 1).val
      ∧ (i 1).val < win3_2.index ⟨(i 0).val / 256, ht⟩ (1 : Fin 2) * 2048 + 2048
    rw [e1]
    show (0) * 2048 ≤ (i 1).val ∧ (i 1).val < (0) * 2048 + 2048
    omega

/-- THE RESULT ARRAY after the call. -/
theorem final3 (c : Dev nD) : (dat3 V c).arrAt 2 cfg3.N = G3 V c :=
  (dat3 V c).arrAt_eq_of_cover 2 (G3 V c) (fun t _ => flushed3 V c t) (cover3)
theorem kept3_0 (c : Dev nD) : (dat3 V c).arrAt 0 cfg3.N = V c main_v12 :=
  ((dat3 V c).arrAt_in 0 rfl cfg3.N).trans (A_eq3 V c 0)
theorem kept3_1 (c : Dev nD) : (dat3 V c).arrAt 1 cfg3.N = V c main_v13 :=
  ((dat3 V c).arrAt_in 1 rfl cfg3.N).trans (A_eq3 V c 1)

end Cert.KernelIdeal.Regions

end
-- ==== Proof.Region4.lean ====
/-
  The gated product as a whole-array fact: its result array ends holding silu of the product with the transposed gate
  weights times the product with the transposed up weights, entry by entry. The grid walks the weight rows in slabs of 1024
  (slow axis) and the activation rows in slabs of 512 (fast axis): point t = 8 i + j multiplies activation rows
  512 j .. 512 j + 511 with weight rows 1024 i .. 1024 i + 1023 and writes the 512 x 1024 block (j, i) of the result.
-/
import proofs.«177261_j1571958030520_2_alg».proof.Proof.Gen.KernelIdeal.Frame
import proofs.«177261_j1571958030520_2_alg».proof.Proof.Region0
import Idealize.ShloMosaic.Lib.Pipeline.Value

set_option maxRecDepth 16384

noncomputable section

open Idealize.ShloMosaic Idealize.ShloMosaic.TcCoe Idealize.SL.Sem
open Idealize.ShloMosaic.Pipeline (Dat)

namespace Cert.KernelIdeal.Regions

open Cert.KernelIdeal Cert.KernelIdeal.Gen Cert.KernelIdeal.Blocks Idealize.ShloMosaic.ValueIdx Cert.Layer Cert.LibLanes
open scoped BigOperators

variable (V : (c : Dev nD) → (b : Ref sig .tc) → Buf (Elt Ideal) ((c : Thread nD τ).loc b))

/-- The activation tile follows the fast grid axis. -/
theorem idx4_0 : ∀ t : Fin cfg4.N, win4_0.index t (0 : Fin 2) = t.val % 8 ∧ win4_0.index t (1 : Fin 2) = 0 :=
  (by decide +kernel : ∀ t : Fin grid4.N, _)

theorem read4_0 (c : Dev nD) (t : Fin cfg4.N) (p : Fin 512) (k : Fin 2048) (i : S4096x2048.Idx)
    (h0 : (i 0).val = t.val % 8 * 512 + p.val) (h1 : (i 1).val = 0 * 2048 + k.val) :
    (iblk4 V c 0 t : Vec Ideal S512x2048 .bf16) (ix2 p k) = (V c main_v14 : S4096x2048.Idx → EReal) i := by
  obtain ⟨e0, e1⟩ := idx4_0 t
  show (V c main_v14 : S4096x2048.Idx → EReal) (((cfg4.win 0).blk t).view.emb (ix2 p k)) = _
  refine congrArg (V c main_v14 : S4096x2048.Idx → EReal) (idx2_ext _ _ ?_ ?_)
  · show win4_0.index t (0 : Fin 2) * 512 + 1 * p.val = (i 0).val
    omega
  · show win4_0.index t (1 : Fin 2) * 2048 + 1 * k.val = (i 1).val
    omega

/-- The gate weight tile follows the slow grid axis. -/
theorem idx4_1 : ∀ t : Fin cfg4.N, win4_1.index t (0 : Fin 2) = t.val / 8 ∧ win4_1.index t (1 : Fin 2) = 0 :=
  (by decide +kernel : ∀ t : Fin grid4.N, _)

theorem read4_1 (c : Dev nD) (t : Fin cfg4.N) (p : Fin 1024) (k : Fin 2048) (i : S11264x2048.Idx)
    (h0 : (i 0).val = t.val / 8 * 1024 + p.val) (h1 : (i 1).val = 0 * 2048 + k.val) :
    (iblk4 V c 1 t : Vec Ideal S1024x2048 .bf16) (ix2 p k) = (V c main_v4 : S11264x2048.Idx → EReal) i := by
  obtain ⟨e0, e1⟩ := idx4_1 t
  show (V c main_v4 : S11264x2048.Idx → EReal) (((cfg4.win 1).blk t).view.emb (ix2 p k)) = _
  refine congrArg (V c main_v4 : S11264x2048.Idx → EReal) (idx2_ext _ _ ?_ ?_)
  · show win4_1.index t (0 : Fin 2) * 1024 + 1 * p.val = (i 0).val
    omega
  · show win4_1.index t (1 : Fin 2) * 2048 + 1 * k.val = (i 1).val
    omega

/-- The up weight tile follows the slow grid axis. -/
theorem idx4_2 : ∀ t : Fin cfg4.N, win4_2.index t (0 : Fin 2) = t.val / 8 ∧ win4_2.index t (1 : Fin 2) = 0 :=
  (by decide +kernel : ∀ t : Fin grid4.N, _)

theorem read4_2 (c : Dev nD) (t : Fin cfg4.N) (p : Fin 1024) (k : Fin 2048) (i : S11264x2048.Idx)
    (h0 : (i 0).val = t.val / 8 * 1024 + p.val) (h1 : (i 1).val = 0 * 2048 + k.val) :
    (iblk4 V c 2 t : Vec Ideal S1024x2048 .bf16) (ix2 p k) = (V c main_v6 : S11264x2048.Idx → EReal) i := by
  obtain ⟨e0, e1⟩ := idx4_2 t
  show (V c main_v6 : S11264x2048.Idx → EReal) (((cfg4.win 2).blk t).view.emb (ix2 p k)) = _
  refine congrArg (V c main_v6 : S11264x2048.Idx → EReal) (idx2_ext _ _ ?_ ?_)
  · show win4_2.index t (0 : Fin 2) * 1024 + 1 * p.val = (i 0).val
    omega
  · show win4_2.index t (1 : Fin 2) * 2048 + 1 * k.val = (i 1).val
    omega

theorem idx4_3 : ∀ t : Fin cfg4.N, win4_3.index t (0 : Fin 2) = t.val % 8 ∧ win4_3.index t (1 : Fin 2) = t.val / 8 :=
  (by decide +kernel : ∀ t : Fin grid4.N, _)

/-- The gated product of region 4's entry contents. -/
abbrev G4 (c : Dev nD) : Mat 4096 11264 :=
  gateUp (V c main_v14 : S4096x2048.Idx → EReal) (V c main_v4 : S11264x2048.Idx → EReal) (V c main_v6 : S11264x2048.Idx → EReal)

/-- What point t writes back is its block of the gated product. -/
theorem flushed4 (c : Dev nD) (t : Fin cfg4.N) :
    (dat4 V c).flushed 3 t = ((cfg4.win 3).blk t).view.read (Elt Ideal) (G4 V c) := by
  show (cfg4.win 3).cut (grid4.coords t) ((dat4 V c).after 3 t) = _
  rw [after4_3]
  unfold out4_3
  rw [View.canon_unit_zero hz]
  simp only [View.ld_unit_zero (S := S512x2048) hz, View.ld_unit_zero (S := S1024x2048) hz]
  obtain ⟨e30, e31⟩ := idx4_3 t
  funext y
  obtain ⟨p, q, rfl⟩ : ∃ (p : Fin 512) (q : Fin 1024), y = ix2 p q := ⟨y 0, y 1, eq_ix2 y⟩
  show k4_pay1 (iblk4 V c 0 t) (iblk4 V c 1 t) (iblk4 V c 2 t) (ix2 p q) = G4 V c (((cfg4.win 3).blk t).view.emb (ix2 p q))
  rw [gate_up_block]
  unfold G4 gateUp mmT
  have h0 : ∀ k : Fin 2048, (iblk4 V c 0 t : Vec Ideal S512x2048 .bf16) (ix2 p k)
      = (V c main_v14 : S4096x2048.Idx → EReal) (ix2 ((((cfg4.win 3).blk t).view.emb (ix2 p q) : S4096x11264.Idx) 0) k) := fun k =>
    read4_0 V c t p k _ (by show win4_3.index t (0 : Fin 2) * 512 + 1 * p.val = t.val % 8 * 512 + p.val; omega)
      (by show k.val = 0 * 2048 + k.val; omega)
  have h1 : ∀ k : Fin 2048, (iblk4 V c 1 t : Vec Ideal S1024x2048 .bf16) (ix2 q k)
      = (V c main_v4 : S11264x2048.Idx → EReal) (ix2 ((((cfg4.win 3).blk t).view.emb (ix2 p q) : S4096x11264.Idx) 1) k) := fun k =>
    read4_1 V c t q k _ (by show win4_3.index t (1 : Fin 2) * 1024 + 1 * q.val = t.val / 8 * 1024 + q.val; omega)
      (by show k.val = 0 * 2048 + k.val; omega)
  have h2 : ∀ k : Fin 2048, (iblk4 V c 2 t : Vec Ideal S1024x2048 .bf16) (ix2 q k)
      = (V c main_v6 : S11264x2048.Idx → EReal) (ix2 ((((cfg4.win 3).blk t).view.emb (ix2 p q) : S4096x11264.Idx) 1) k) := fun k =>
    read4_2 V c t q k _ (by show win4_3.index t (1 : Fin 2) * 1024 + 1 * q.val = t.val / 8 * 1024 + q.val; omega)
      (by show k.val = 0 * 2048 + k.val; omega)
  refine congrArg₂ (fun a b => silu a * b) (Finset.sum_congr rfl fun k _ => ?_) (Finset.sum_congr rfl fun k _ => ?_)
  · rw [h0 k, h1 k]
  · rw [h0 k, h2 k]

/-- An index of the result array is in point t's block iff each coordinate is in the block's range. -/
theorem mem_blk4 (t : Fin cfg4.N) (i : S4096x11264.Idx) :
    i ∈ ((cfg4.win 3).blk t).view.set ↔ ∀ a : Fin 2, win4_3.index t a * S512x1024.size a ≤ (i a).val
      ∧ (i a).val < win4_3.index t a * S512x1024.size a + S512x1024.size a := by
  show i ∈ ((View.whole main_v15).slice (win4_3.rect t)).set ↔ _
  rw [View.set_slice_whole, Rect.mem_set_unit]
  exact Iff.rfl

/-- Entry (r, l) lies in the block of point 8 (l / 1024) + r / 512. -/
theorem cover4 (i : S4096x11264.Idx) : ∃ t : Fin cfg4.N, (cfg4.win 3).flush t = true ∧ i ∈ ((cfg4.win 3).blk t).view.set := by
  have hi0 : (i 0).val < 4096 := (i 0).isLt
  have hi1 : (i 1).val < 11264 := (i 1).isLt
  have hN : cfg4.N = 88 := N_4
  have ht : (i 1).val / 1024 * 8 + (i 0).val / 512 < cfg4.N := by rw [hN]; omega
  obtain ⟨e0, e1⟩ := idx4_3 ⟨(i 1).val / 1024 * 8 + (i 0).val / 512, ht⟩
  refine ⟨⟨(i 1).val / 1024 * 8 + (i 0).val / 512, ht⟩, flush4_3 _, ?_⟩
  rw [mem_blk4]
  intro a
  match a with
  | ⟨0, _⟩ =>
    show win4_3.index ⟨(i 1).val / 1024 * 8 + (i 0).val / 512, ht⟩ (0 : Fin 2) * 512 ≤ (i 0).val
      ∧ (i 0).val < win4_3.index ⟨(i 1).val / 1024 * 8 + (i 0).val / 512, ht⟩ (0 : Fin 2) * 512 + 512
    rw [e0]
    show (((i 1).val / 1024 * 8 + (i 0).val / 512) % 8) * 512 ≤ (i 0).val ∧ (i 0).val < (((i 1).val / 1024 * 8 + (i 0).val / 512) % 8) * 512 + 512
    omega
  | ⟨1, _⟩ =>
    show win4_3.index ⟨(i 1).val / 1024 * 8 + (i 0).val / 512, ht⟩ (1 : Fin 2) * 1024 ≤ (i 1).val
      ∧ (i 1).val < win4_3.index ⟨(i 1).val / 1024 * 8 + (i 0).val / 512, ht⟩ (1 : Fin 2) * 1024 + 1024
    rw [e1]
    show (((i 1).val / 1024 * 8 + (i 0).val / 512) / 8) * 1024 ≤ (i 1).val ∧ (i 1).val < (((i 1).val / 1024 * 8 + (i 0).val / 512) / 8) * 1024 + 1024
    omega

/-- THE RESULT ARRAY after the call. -/
theorem final4 (c : Dev nD) : (dat4 V c).arrAt 3 cfg4.N = G4 V c :=
  (dat4 V c).arrAt_eq_of_cover 3 (G4 V c) (fun t _ => flushed4 V c t) (cover4)
theorem kept4_0 (c : Dev nD) : (dat4 V c).arrAt 0 cfg4.N = V c main_v14 :=
  ((dat4 V c).arrAt_in 0 rfl cfg4.N).trans (A_eq4 V c 0)
theorem kept4_1 (c : Dev nD) : (dat4 V c).arrAt 1 cfg4.N = V c main_v4 :=
  ((dat4 V c).arrAt_in 1 rfl cfg4.N).trans (A_eq4 V c 1)
theorem kept4_2 (c : Dev nD) : (dat4 V c).arrAt 2 cfg4.N = V c main_v6 :=
  ((dat4 V c).arrAt_in 2 rfl cfg4.N).trans (A_eq4 V c 2)

end Cert.KernelIdeal.Regions

end
-- ==== Proof.Region5.lean ====
/-
  The down projection with the residual as a whole-array fact: its result array ends holding the product of the gated
  array with the transposed down weights, contracted over all 11264 lanes, plus the residual array. Point t = 8 i + j
  multiplies gated rows 512 i .. 512 i + 511 with weight rows 256 j .. 256 j + 255 and writes the 512 x 256 block (i, j).
-/
import proofs.«177261_j1571958030520_2_alg».proof.Proof.Gen.KernelIdeal.Frame
import proofs.«177261_j1571958030520_2_alg».proof.Proof.Region0
import Idealize.ShloMosaic.Lib.Pipeline.Value

set_option maxRecDepth 16384

noncomputable section

open Idealize.ShloMosaic Idealize.ShloMosaic.TcCoe Idealize.SL.Sem
open Idealize.ShloMosaic.Pipeline (Dat)

namespace Cert.KernelIdeal.Regions

open Cert.KernelIdeal Cert.KernelIdeal.Gen Cert.KernelIdeal.Blocks Idealize.ShloMosaic.ValueIdx Cert.Layer Cert.LibLanes
open scoped BigOperators

variable (V : (c : Dev nD) → (b : Ref sig .tc) → Buf (Elt Ideal) ((c : Thread nD τ).loc b))

/-- The gated tile follows the slow grid axis. -/
theorem idx5_0 : ∀ t : Fin cfg5.N, win5_0.index t (0 : Fin 2) = t.val / 8 ∧ win5_0.index t (1 : Fin 2) = 0 :=
  (by decide +kernel : ∀ t : Fin grid5.N, _)

theorem read5_0 (c : Dev nD) (t : Fin cfg5.N) (p : Fin 512) (k : Fin 11264) (i : S4096x11264.Idx)
    (h0 : (i 0).val = t.val / 8 * 512 + p.val) (h1 : (i 1).val = 0 * 11264 + k.val) :
    (iblk5 V c 0 t : Vec Ideal S512x11264 .bf16) (ix2 p k) = (V c main_v15 : S4096x11264.Idx → EReal) i := by
  obtain ⟨e0, e1⟩ := idx5_0 t
  show (V c main_v15 : S4096x11264.Idx → EReal) (((cfg5.win 0).blk t).view.emb (ix2 p k)) = _
  refine congrArg (V c main_v15 : S4096x11264.Idx → EReal) (idx2_ext _ _ ?_ ?_)
  · show win5_0.index t (0 : Fin 2) * 512 + 1 * p.val = (i 0).val
    omega
  · show win5_0.index t (1 : Fin 2) * 11264 + 1 * k.val = (i 1).val
    omega

/-- The weight tile follows the fast grid axis. -/
theorem idx5_1 : ∀ t : Fin cfg5.N, win5_1.index t (0 : Fin 2) = t.val % 8 ∧ win5_1.index t (1 : Fin 2) = 0 :=
  (by decide +kernel : ∀ t : Fin grid5.N, _)

theorem read5_1 (c : Dev nD) (t : Fin cfg5.N) (p : Fin 256) (k : Fin 11264) (i : S2048x11264.Idx)
    (h0 : (i 0).val = t.val % 8 * 256 + p.val) (h1 : (i 1).val = 0 * 11264 + k.val) :
    (iblk5 V c 1 t : Vec Ideal S256x11264 .bf16) (ix2 p k) = (V c main_v8 : S2048x11264.Idx → EReal) i := by
  obtain ⟨e0, e1⟩ := idx5_1 t
  show (V c main_v8 : S2048x11264.Idx → EReal) (((cfg5.win 1).blk t).view.emb (ix2 p k)) = _
  refine congrArg (V c main_v8 : S2048x11264.Idx → EReal) (idx2_ext _ _ ?_ ?_)
  · show win5_1.index t (0 : Fin 2) * 256 + 1 * p.val = (i 0).val
    omega
  · show win5_1.index t (1 : Fin 2) * 11264 + 1 * k.val = (i 1).val
    omega

/-- The residual tile is the block the result tile will fill. -/
theorem idx5_2 : ∀ t : Fin cfg5.N, win5_2.index t (0 : Fin 2) = t.val / 8 ∧ win5_2.index t (1 : Fin 2) = t.val % 8 :=
  (by decide +kernel : ∀ t : Fin grid5.N, _)

theorem read5_2 (c : Dev nD) (t : Fin cfg5.N) (p : Fin 512) (k : Fin 256) (i : S4096x2048.Idx)
    (h0 : (i 0).val = t.val / 8 * 512 + p.val) (h1 : (i 1).val = t.val % 8 * 256 + k.val) :
    (iblk5 V c 2 t : Vec Ideal S512x256 .f32) (ix2 p k) = (V c main_v12 : S4096x2048.Idx → EReal) i := by
  obtain ⟨e0, e1⟩ := idx5_2 t
  show (V c main_v12 : S4096x2048.Idx → EReal) (((cfg5.win 2).blk t).view.emb (ix2 p k)) = _
  refine congrArg (V c main_v12 : S4096x2048.Idx → EReal) (idx2_ext _ _ ?_ ?_)
  · show win5_2.index t (0 : Fin 2) * 512 + 1 * p.val = (i 0).val
    omega
  · show win5_2.index t (1 : Fin 2) * 256 + 1 * k.val = (i 1).val
    omega

theorem idx5_3 : ∀ t : Fin cfg5.N, win5_3.index t (0 : Fin 2) = t.val / 8 ∧ win5_3.index t (1 : Fin 2) = t.val % 8 :=
  (by decide +kernel : ∀ t : Fin grid5.N, _)

/-- The product plus the residual, of region 5's entry contents. -/
abbrev G5 (c : Dev nD) : Mat 4096 2048 :=
  addM (mmT (V c main_v15 : S4096x11264.Idx → EReal) (V c main_v8 : S2048x11264.Idx → EReal)) (V c main_v12 : S4096x2048.Idx → EReal)

/-- What point t writes back is its block of that array. -/
theorem flushed5 (c : Dev nD) (t : Fin cfg5.N) :
    (dat5 V c).flushed 3 t = ((cfg5.win 3).blk t).view.read (Elt Ideal) (G5 V c) := by
  show (cfg5.win 3).cut (grid5.coords t) ((dat5 V c).after 3 t) = _
  rw [after5_3]
  unfold out5_3
  rw [View.canon_unit_zero hz]
  simp only [View.ld_unit_zero (S := S512x11264) hz, View.ld_unit_zero (S := S256x11264) hz, View.ld_unit_zero (S := S512x256) hz]
  obtain ⟨e30, e31⟩ := idx5_3 t
  funext y
  obtain ⟨p, q, rfl⟩ : ∃ (p : Fin 512) (q : Fin 256), y = ix2 p q := ⟨y 0, y 1, eq_ix2 y⟩
  show k5_pay1 (iblk5 V c 0 t) (iblk5 V c 1 t) (iblk5 V c 2 t) (ix2 p q) = G5 V c (((cfg5.win 3).blk t).view.emb (ix2 p q))
  rw [down_block]
  unfold G5 addM mmT
  rw [read5_2 V c t p q (((cfg5.win 3).blk t).view.emb (ix2 p q) : S4096x2048.Idx)
      (by show win5_3.index t (0 : Fin 2) * 512 + 1 * p.val = t.val / 8 * 512 + p.val; omega)
      (by show win5_3.index t (1 : Fin 2) * 256 + 1 * q.val = t.val % 8 * 256 + q.val; omega)]
  refine congrArg (· + _) (Finset.sum_congr rfl fun k _ => ?_)
  rw [read5_0 V c t p k (ix2 ((((cfg5.win 3).blk t).view.emb (ix2 p q) : S4096x2048.Idx) 0) k)
      (by show win5_3.index t (0 : Fin 2) * 512 + 1 * p.val = t.val / 8 * 512 + p.val; omega) (by show k.val = 0 * 11264 + k.val; omega),
    read5_1 V c t q k (ix2 ((((cfg5.win 3).blk t).view.emb (ix2 p q) : S4096x2048.Idx) 1) k)
      (by show win5_3.index t (1 : Fin 2) * 256 + 1 * q.val = t.val % 8 * 256 + q.val; omega) (by show k.val = 0 * 11264 + k.val; omega)]

/-- An index of the result array is in point t's block iff each coordinate is in the block's range. -/
theorem mem_blk5 (t : Fin cfg5.N) (i : S4096x2048.Idx) :
    i ∈ ((cfg5.win 3).blk t).view.set ↔ ∀ a : Fin 2, win5_3.index t a * S512x256.size a ≤ (i a).val
      ∧ (i a).val < win5_3.index t a * S512x256.size a + S512x256.size a := by
  show i ∈ ((View.whole main_v16).slice (win5_3.rect t)).set ↔ _
  rw [View.set_slice_whole, Rect.mem_set_unit]
  exact Iff.rfl

/-- Entry (r, l) lies in the block of point 8 (r / 512) + l / 256. -/
theorem cover5 (i : S4096x2048.Idx) : ∃ t : Fin cfg5.N, (cfg5.win 3).flush t = true ∧ i ∈ ((cfg5.win 3).blk t).view.set := by
  have hi0 : (i 0).val < 4096 := (i 0).isLt
  have hi1 : (i 1).val < 2048 := (i 1).isLt
  have hN : cfg5.N = 64 := N_5
  have ht : (i 0).val / 512 * 8 + (i 1).val / 256 < cfg5.N := by rw [hN]; omega
  obtain ⟨e0, e1⟩ := idx5_3 ⟨(i 0).val / 512 * 8 + (i 1).val / 256, ht⟩
  refine ⟨⟨(i 0).val / 512 * 8 + (i 1).val / 256, ht⟩, flush5_3 _, ?_⟩
  rw [mem_blk5]
  intro a
  match a with
  | ⟨0, _⟩ =>
    show win5_3.index ⟨(i 0).val / 512 * 8 + (i 1).val / 256, ht⟩ (0 : Fin 2) * 512 ≤ (i 0).val
      ∧ (i 0).val < win5_3.index ⟨(i 0).val / 512 * 8 + (i 1).val / 256, ht⟩ (0 : Fin 2) * 512 + 512
    rw [e0]
    show (((i 0).val / 512 * 8 + (i 1).val / 256) / 8) * 512 ≤ (i 0).val ∧ (i 0).val < (((i 0).val / 512 * 8 + (i 1).val / 256) / 8) * 512 + 512
    omega
  | ⟨1, _⟩ =>
    show win5_3.index ⟨(i 0).val / 512 * 8 + (i 1).val / 256, ht⟩ (1 : Fin 2) * 256 ≤ (i 1).val
      ∧ (i 1).val < win5_3.index ⟨(i 0).val / 512 * 8 + (i 1).val / 256, ht⟩ (1 : Fin 2) * 256 + 256
    rw [e1]
    show (((i 0).val / 512 * 8 + (i 1).val / 256) % 8) * 256 ≤ (i 1).val ∧ (i 1).val < (((i 0).val / 512 * 8 + (i 1).val / 256) % 8) * 256 + 256
    omega

/-- THE RESULT ARRAY after the call. -/
theorem final5 (c : Dev nD) : (dat5 V c).arrAt 3 cfg5.N = G5 V c :=
  (dat5 V c).arrAt_eq_of_cover 3 (G5 V c) (fun t _ => flushed5 V c t) (cover5)
theorem kept5_0 (c : Dev nD) : (dat5 V c).arrAt 0 cfg5.N = V c main_v15 :=
  ((dat5 V c).arrAt_in 0 rfl cfg5.N).trans (A_eq5 V c 0)
theorem kept5_1 (c : Dev nD) : (dat5 V c).arrAt 1 cfg5.N = V c main_v8 :=
  ((dat5 V c).arrAt_in 1 rfl cfg5.N).trans (A_eq5 V c 1)
theorem kept5_2 (c : Dev nD) : (dat5 V c).arrAt 2 cfg5.N = V c main_v12 :=
  ((dat5 V c).arrAt_in 2 rfl cfg5.N).trans (A_eq5 V c 2)

end Cert.KernelIdeal.Regions

end
-- ==== Proof.Fold.lean ====
/-
  The arrays the six calls pass to one another, followed from the launch memory to the result.

  Before the first call the host reshapes the activations to [4096, 2048] and each weight vector to a row, rounds the
  projection weights to bf16 (the identity here) and pads the three wide weight arrays from 10944 to 11264 with the
  zero it converts from an integer. Each call then finds its operands where an earlier call or the host left them:
  a buffer no later call writes keeps its contents. Read in order, the result buffer ends holding the layer
  (`Cert.Layer.layer`) of those arrays, reshaped back to [2, 2048, 2048].
-/
import proofs.«177261_j1571958030520_2_alg».proof.Proof.Region1
import proofs.«177261_j1571958030520_2_alg».proof.Proof.Region2
import proofs.«177261_j1571958030520_2_alg».proof.Proof.Region3
import proofs.«177261_j1571958030520_2_alg».proof.Proof.Region4
import proofs.«177261_j1571958030520_2_alg».proof.Proof.Region5
import Idealize.ShloMosaic.Lib.StableHlo.Run

set_option maxRecDepth 16384

noncomputable section

open Idealize.ShloMosaic Idealize.ShloMosaic.TcCoe Idealize.SL.Sem
open Idealize.ShloMosaic.Pipeline (Dat)

namespace Cert.KernelIdeal.Fold

open Cert.KernelIdeal Cert.KernelIdeal.Gen Cert.KernelIdeal.Regions Idealize.ShloMosaic.ValueIdx Cert.Layer
open Idealize.ShloMosaic.StableHlo
open scoped BigOperators

variable (m : (ℓ : Loc nD τ sig) → Buf (Elt Ideal) ℓ) (ρ : Dev nD → PrngReg)

/-! ## The arrays the host prepares -/

/-- The activations as a [4096, 2048] matrix. -/
abbrev X (c : Dev nD) : Mat 4096 2048 := shapeCast S4096x2048 (m ((c : Thread nD τ).loc main_arg0)) shapeCasts_S2x2048x2048_S4096x2048
/-- The first normalization's weights, lane by lane. -/
abbrev wIn (c : Dev nD) : Fin 2048 → EReal := fun j => shapeCast S1x2048 (m ((c : Thread nD τ).loc main_arg2)) shapeCasts_S2048_S1x2048 (ix2 (0 : Fin 1) j)
/-- The second normalization's weights, lane by lane. -/
abbrev wPost (c : Dev nD) : Fin 2048 → EReal := fun j => shapeCast S1x2048 (m ((c : Thread nD τ).loc main_arg3)) shapeCasts_S2048_S1x2048 (ix2 (0 : Fin 1) j)
/-- The query and output projection weights, rounded to bf16. -/
abbrev Wq (c : Dev nD) : FVec Ideal S2048x2048 .bf16 := truncf (F := Ideal) .bf16 ((m ((c : Thread nD τ).loc main_arg4)) : FVec Ideal S2048x2048 .f32) bitsLt_bf16_f32
abbrev Wo (c : Dev nD) : FVec Ideal S2048x2048 .bf16 := truncf (F := Ideal) .bf16 ((m ((c : Thread nD τ).loc main_arg5)) : FVec Ideal S2048x2048 .f32) bitsLt_bf16_f32
/-- The padding value: the integer zero converted. -/
abbrev padv : FVec Ideal S_ .f32 := sitofp (F := Ideal) .f32 (constantI S_ 32 0#32)
/-- The gate, up and down weights, padded to 11264 and rounded to bf16. -/
abbrev WgP (c : Dev nD) : FVec Ideal S11264x2048 .bf16 :=
  truncf (F := Ideal) .bf16 (pad S11264x2048 ![0, 0] ![320, 0] ![0, 0] ((m ((c : Thread nD τ).loc main_arg6)) : FVec Ideal S10944x2048 .f32) padv pads_S10944x2048_S11264x2048_03200_000 h_S_) bitsLt_bf16_f32
abbrev WuP (c : Dev nD) : FVec Ideal S11264x2048 .bf16 :=
  truncf (F := Ideal) .bf16 (pad S11264x2048 ![0, 0] ![320, 0] ![0, 0] ((m ((c : Thread nD τ).loc main_arg7)) : FVec Ideal S10944x2048 .f32) padv pads_S10944x2048_S11264x2048_03200_000 h_S_) bitsLt_bf16_f32
abbrev WdP (c : Dev nD) : FVec Ideal S2048x11264 .bf16 :=
  truncf (F := Ideal) .bf16 (pad S2048x11264 ![0, 0] ![0, 320] ![0, 0] ((m ((c : Thread nD τ).loc main_arg8)) : FVec Ideal S2048x10944 .f32) padv pads_S2048x10944_S2048x11264_000_03200 h_S_) bitsLt_bf16_f32

theorem E7_v0 (c : Dev nD) : W7 m ρ c (Proc.devRef .tc main_v0) = X m c := by
  dsimp only [W7, W6, W5, W4, W3, W2, W1, hostOps0, hostOps0_1, hostOps0_2, hostOps0_3, hostOps0_4, hostOps0_5, hostOps0_6]
  after_results
  try rfl
theorem E7_v9 (c : Dev nD) : W7 m ρ c (Proc.devRef .tc main_v9) = shapeCast S1x2048 (m ((c : Thread nD τ).loc main_arg2)) shapeCasts_S2048_S1x2048 := by
  dsimp only [W7, W6, W5, W4, W3, W2, W1, hostOps0, hostOps0_1, hostOps0_2, hostOps0_3, hostOps0_4, hostOps0_5, hostOps0_6]
  after_results
  try rfl
theorem E7_arg3 (c : Dev nD) : W7 m ρ c (Proc.devRef .tc main_arg3) = (m ((c : Thread nD τ).loc main_arg3)) := by
  dsimp only [W7, W6, W5, W4, W3, W2, W1, hostOps0, hostOps0_1, hostOps0_2, hostOps0_3, hostOps0_4, hostOps0_5, hostOps0_6]
  after_results
  try rfl
theorem E7_v1 (c : Dev nD) : W7 m ρ c (Proc.devRef .tc main_v1) = Wq m c := by
  dsimp only [W7, W6, W5, W4, W3, W2, W1, hostOps0, hostOps0_1, hostOps0_2, hostOps0_3, hostOps0_4, hostOps0_5, hostOps0_6]
  after_results
  try rfl
theorem E7_v2 (c : Dev nD) : W7 m ρ c (Proc.devRef .tc main_v2) = Wo m c := by
  dsimp only [W7, W6, W5, W4, W3, W2, W1, hostOps0, hostOps0_1, hostOps0_2, hostOps0_3, hostOps0_4, hostOps0_5, hostOps0_6]
  after_results
  try rfl
theorem E7_v4 (c : Dev nD) : W7 m ρ c (Proc.devRef .tc main_v4) = WgP m c := by
  dsimp only [W7, W6, W5, W4, W3, W2, W1, hostOps0, hostOps0_1, hostOps0_2, hostOps0_3, hostOps0_4, hostOps0_5, hostOps0_6]
  after_results
  try rfl
theorem E7_v6 (c : Dev nD) : W7 m ρ c (Proc.devRef .tc main_v6) = WuP m c := by
  dsimp only [W7, W6, W5, W4, W3, W2, W1, hostOps0, hostOps0_1, hostOps0_2, hostOps0_3, hostOps0_4, hostOps0_5, hostOps0_6]
  after_results
  try rfl
theorem E7_v8 (c : Dev nD) : W7 m ρ c (Proc.devRef .tc main_v8) = WdP m c := by
  dsimp only [W7, W6, W5, W4, W3, W2, W1, hostOps0, hostOps0_1, hostOps0_2, hostOps0_3, hostOps0_4, hostOps0_5, hostOps0_6]
  after_results
  try rfl

/-! ## From call to call -/

/-- After the first normalization: the normalized activations. -/
theorem a0 (c : Dev nD) : W8 m ρ c (Proc.devRef .tc main_v10) = rmsNorm (X m c) (wIn m c) := by
  refine ((W8_arr m ρ c 2).trans (final0 (V7 m ρ) c)).trans ?_
  dsimp only [G0, V7]
  rw [E7_v0 m ρ c, E7_v9 m ρ c]

/-- The query weights are still where the host left them. -/
theorem k8_v1 (c : Dev nD) : W8 m ρ c (Proc.devRef .tc main_v1) = Wq m c :=
  (W8_of_ne m ρ c main_v1 (by decide)).trans (E7_v1 m ρ c)

/-- After the query projection. -/
theorem a1 (c : Dev nD) : W9 m ρ c (Proc.devRef .tc main_v11) = mmT (rmsNorm (X m c) (wIn m c)) (Wq m c) := by
  refine ((W9_arr m ρ c 2).trans (final1 (V8 m ρ) c)).trans ?_
  dsimp only [G1, V8]
  rw [a0 m ρ c, k8_v1 m ρ c]

theorem k9_v2 (c : Dev nD) : W9 m ρ c (Proc.devRef .tc main_v2) = Wo m c :=
  ((W9_of_ne m ρ c main_v2 (by decide)).trans (W8_of_ne m ρ c main_v2 (by decide))).trans (E7_v2 m ρ c)

/-- The activations, read by the first call, are as the host left them. -/
theorem k9_v0 (c : Dev nD) : W9 m ρ c (Proc.devRef .tc main_v0) = X m c :=
  ((W9_of_ne m ρ c main_v0 (by decide)).trans ((W8_arr m ρ c 0).trans (kept0_0 (V7 m ρ) c))).trans (E7_v0 m ρ c)

/-- After the output projection: the residual stream. -/
theorem a2 (c : Dev nD) : W10 m ρ c (Proc.devRef .tc main_v12) = hidden (X m c) (wIn m c) (Wq m c) (Wo m c) := by
  refine ((W10_arr m ρ c 3).trans (final2 (V9 m ρ) c)).trans ?_
  dsimp only [G2, V9]
  rw [a1 m ρ c, k9_v2 m ρ c, k9_v0 m ρ c]
  rfl

theorem k10_arg3 (c : Dev nD) : W10 m ρ c (Proc.devRef .tc main_arg3) = (m ((c : Thread nD τ).loc main_arg3)) :=
  (((W10_of_ne m ρ c main_arg3 (by decide)).trans (W9_of_ne m ρ c main_arg3 (by decide))).trans
    (W8_of_ne m ρ c main_arg3 (by decide))).trans (E7_arg3 m ρ c)

theorem a2' (c : Dev nD) : W11 m ρ c (Proc.devRef .tc main_v12) = hidden (X m c) (wIn m c) (Wq m c) (Wo m c) := by
  refine Eq.trans ?_ (a2 m ρ c)
  dsimp only [W11, hostOps3]
  after_results

theorem k11_v13 (c : Dev nD) : W11 m ρ c (Proc.devRef .tc main_v13)
    = shapeCast S1x2048 (m ((c : Thread nD τ).loc main_arg3)) shapeCasts_S2048_S1x2048 := by
  refine Eq.trans ?_ (congrArg (fun a => shapeCast S1x2048 a shapeCasts_S2048_S1x2048) (k10_arg3 m ρ c))
  dsimp only [W11, hostOps3]
  after_results
  rfl

/-- After the second normalization. -/
theorem a3 (c : Dev nD) : W12 m ρ c (Proc.devRef .tc main_v14)
    = rmsNorm (hidden (X m c) (wIn m c) (Wq m c) (Wo m c)) (wPost m c) := by
  refine ((W12_arr m ρ c 2).trans (final3 (V11 m ρ) c)).trans ?_
  dsimp only [G3, V11]
  rw [a2' m ρ c, k11_v13 m ρ c]

theorem k12_v4 (c : Dev nD) : W12 m ρ c (Proc.devRef .tc main_v4) = WgP m c := by
  refine (W12_of_ne m ρ c main_v4 (by decide)).trans ?_
  refine Eq.trans ?_ ((((W10_of_ne m ρ c main_v4 (by decide)).trans (W9_of_ne m ρ c main_v4 (by decide))).trans
    (W8_of_ne m ρ c main_v4 (by decide))).trans (E7_v4 m ρ c))
  dsimp only [W11, hostOps3]
  after_results
theorem k12_v6 (c : Dev nD) : W12 m ρ c (Proc.devRef .tc main_v6) = WuP m c := by
  refine (W12_of_ne m ρ c main_v6 (by decide)).trans ?_
  refine Eq.trans ?_ ((((W10_of_ne m ρ c main_v6 (by decide)).trans (W9_of_ne m ρ c main_v6 (by decide))).trans
    (W8_of_ne m ρ c main_v6 (by decide))).trans (E7_v6 m ρ c))
  dsimp only [W11, hostOps3]
  after_results

/-- After the gated product. -/
theorem a4 (c : Dev nD) : W13 m ρ c (Proc.devRef .tc main_v15)
    = gateUp (rmsNorm (hidden (X m c) (wIn m c) (Wq m c) (Wo m c)) (wPost m c)) (WgP m c) (WuP m c) := by
  refine ((W13_arr m ρ c 3).trans (final4 (V12 m ρ) c)).trans ?_
  dsimp only [G4, V12]
  rw [a3 m ρ c, k12_v4 m ρ c, k12_v6 m ρ c]

theorem k13_v8 (c : Dev nD) : W13 m ρ c (Proc.devRef .tc main_v8) = WdP m c := by
  refine ((W13_of_ne m ρ c main_v8 (by decide)).trans (W12_of_ne m ρ c main_v8 (by decide))).trans ?_
  refine Eq.trans ?_ ((((W10_of_ne m ρ c main_v8 (by decide)).trans (W9_of_ne m ρ c main_v8 (by decide))).trans
    (W8_of_ne m ρ c main_v8 (by decide))).trans (E7_v8 m ρ c))
  dsimp only [W11, hostOps3]
  after_results

/-- The residual stream, read by the second normalization, is still in place for the last call. -/
theorem k13_v12 (c : Dev nD) : W13 m ρ c (Proc.devRef .tc main_v12) = hidden (X m c) (wIn m c) (Wq m c) (Wo m c) :=
  ((W13_of_ne m ρ c main_v12 (by decide)).trans ((W12_arr m ρ c 0).trans (kept3_0 (V11 m ρ) c))).trans (a2' m ρ c)

/-- After the down projection: the layer. -/
theorem a5 (c : Dev nD) : W14 m ρ c (Proc.devRef .tc main_v16)
    = layer (X m c) (wIn m c) (wPost m c) (Wq m c) (Wo m c) (WgP m c) (WuP m c) (WdP m c) := by
  refine ((W14_arr m ρ c 3).trans (final5 (V13 m ρ) c)).trans ?_
  dsimp only [G5, V13]
  rw [a4 m ρ c, k13_v8 m ρ c, k13_v12 m ρ c]
  rfl

/-- THE RESULT BUFFER at the last boundary: the layer of the prepared arrays, reshaped to [2, 2048, 2048]. -/
theorem result_eq (c : Dev nD) : W15 m ρ c (Proc.devRef .tc main_v17)
    = shapeCast S2x2048x2048 (layer (X m c) (wIn m c) (wPost m c) (Wq m c) (Wo m c) (WgP m c) (WuP m c) (WdP m c))
        shapeCasts_S4096x2048_S2x2048x2048 := by
  refine Eq.trans ?_ (congrArg (fun a => shapeCast S2x2048x2048 a shapeCasts_S4096x2048_S2x2048x2048) (a5 m ρ c))
  dsimp only [W15, hostOps6]
  after_results
  rfl

end Cert.KernelIdeal.Fold

end
-- ==== Proof.KernelValue.lean ====
/-
  The kernel program's result in terms of the arguments themselves: the padding the host adds to the three wide weight
  arrays is exact (`Cert.Layer.layer_pad`), a reshaped weight vector read at lane j is the vector's entry j, and
  rounding a weight array to bf16 is the identity on extended reals.
-/
import proofs.«177261_j1571958030520_2_alg».proof.Proof.Fold
import Idealize.ShloMosaic.Lib.KernelVsHost
import Idealize.ShloMosaic.Lib.ValueLayout

set_option maxRecDepth 16384

noncomputable section

open Idealize.ShloMosaic Idealize.ShloMosaic.TcCoe Idealize.SL.Sem

namespace Cert.KernelIdeal.Fold

open Cert.KernelIdeal Cert.KernelIdeal.Gen Idealize.ShloMosaic.ValueIdx Cert.Layer
open scoped BigOperators

variable (m : (ℓ : Loc nD τ sig) → Buf (Elt Ideal) ℓ) (ρ : Dev nD → PrngReg)

/-- The padding value is zero: the integer zero, converted exactly. -/
theorem padv_zero (i : S_.Idx) : padv i = 0 := by
  show (((0#32 : BitVec 32).toInt : ℝ) : EReal) = 0
  simp

/-- A row below 10944 of the padded gate weights is the row of the gate weights. -/
theorem WgP_inside (c : Dev nD) (k : Fin 10944) (l : Fin 2048) :
    WgP m c (ix2 (⟨k.val, by omega⟩ : Fin 11264) l) = ((m ((c : Thread nD τ).loc main_arg6)) : S10944x2048.Idx → EReal) (ix2 k l) :=
  pad_apply_of_inside ![0, 0] ![320, 0] ![0, 0] ((m ((c : Thread nD τ).loc main_arg6)) : S10944x2048.Idx → EReal) padv
    pads_S10944x2048_S11264x2048_03200_000 h_S_ (ix2 (⟨k.val, by omega⟩ : Fin 11264) l) (ix2 k l) (fun a => match a with
      | ⟨0, _⟩ => by show k.val = 0 + k.val * (0 + 1); omega
      | ⟨1, _⟩ => by show l.val = 0 + l.val * (0 + 1); omega)

/-- A row below 10944 of the padded up weights is the row of the up weights. -/
theorem WuP_inside (c : Dev nD) (k : Fin 10944) (l : Fin 2048) :
    WuP m c (ix2 (⟨k.val, by omega⟩ : Fin 11264) l) = ((m ((c : Thread nD τ).loc main_arg7)) : S10944x2048.Idx → EReal) (ix2 k l) :=
  pad_apply_of_inside ![0, 0] ![320, 0] ![0, 0] ((m ((c : Thread nD τ).loc main_arg7)) : S10944x2048.Idx → EReal) padv
    pads_S10944x2048_S11264x2048_03200_000 h_S_ (ix2 (⟨k.val, by omega⟩ : Fin 11264) l) (ix2 k l) (fun a => match a with
      | ⟨0, _⟩ => by show k.val = 0 + k.val * (0 + 1); omega
      | ⟨1, _⟩ => by show l.val = 0 + l.val * (0 + 1); omega)

/-- A lane below 10944 of the padded down weights is the lane of the down weights. -/
theorem WdP_inside (c : Dev nD) (j : Fin 2048) (k : Fin 10944) :
    WdP m c (ix2 j (⟨k.val, by omega⟩ : Fin 11264)) = ((m ((c : Thread nD τ).loc main_arg8)) : S2048x10944.Idx → EReal) (ix2 j k) :=
  pad_apply_of_inside ![0, 0] ![0, 320] ![0, 0] ((m ((c : Thread nD τ).loc main_arg8)) : S2048x10944.Idx → EReal) padv
    pads_S2048x10944_S2048x11264_000_03200 h_S_ (ix2 j (⟨k.val, by omega⟩ : Fin 11264)) (ix2 j k) (fun a => match a with
      | ⟨0, _⟩ => by show j.val = 0 + j.val * (0 + 1); omega
      | ⟨1, _⟩ => by show k.val = 0 + k.val * (0 + 1); omega)

/-- The appended lanes of the padded down weights are zero. -/
theorem WdP_zero (c : Dev nD) (j : Fin 2048) (k : Fin 11264) (hk : 10944 ≤ k.val) : WdP m c (ix2 j k) = 0 := by
  show pad S2048x11264 ![0, 0] ![0, 320] ![0, 0] ((m ((c : Thread nD τ).loc main_arg8)) : S2048x10944.Idx → EReal) padv
    pads_S2048x10944_S2048x11264_000_03200 h_S_ (ix2 j k) = (0 : EReal)
  rw [pad_apply_of_not_inside (s := S2048x10944) (t := S2048x11264) ![0, 0] ![0, 320] ![0, 0] ((m ((c : Thread nD τ).loc main_arg8)) : S2048x10944.Idx → EReal) padv
    pads_S2048x10944_S2048x11264_000_03200 h_S_ (ix2 j k) (1 : Fin 2)
    (by show ¬(0 ≤ k.val ∧ (k.val - 0) % (0 + 1) = 0 ∧ (k.val - 0) / (0 + 1) < 10944); omega)]
  exact padv_zero _

/-- THE KERNEL PROGRAM'S RESULT: the layer of the arguments, reshaped to [2, 2048, 2048]. -/
theorem kernel_value (c : Dev nD) : W15 m ρ c (Proc.devRef .tc main_v17)
    = shapeCast S2x2048x2048 (layer (X m c) (fun j => ((m ((c : Thread nD τ).loc main_arg2)) : S2048.Idx → EReal) (ix1 j))
        (fun j => ((m ((c : Thread nD τ).loc main_arg3)) : S2048.Idx → EReal) (ix1 j))
        ((m ((c : Thread nD τ).loc main_arg4)) : S2048x2048.Idx → EReal) ((m ((c : Thread nD τ).loc main_arg5)) : S2048x2048.Idx → EReal)
        ((m ((c : Thread nD τ).loc main_arg6)) : S10944x2048.Idx → EReal) ((m ((c : Thread nD τ).loc main_arg7)) : S10944x2048.Idx → EReal)
        ((m ((c : Thread nD τ).loc main_arg8)) : S2048x10944.Idx → EReal)) shapeCasts_S4096x2048_S2x2048x2048 := by
  have hin : wIn m c = fun j => ((m ((c : Thread nD τ).loc main_arg2)) : S2048.Idx → EReal) (ix1 j) :=
    funext fun j => shapeCast_a_1a_apply _ shapeCasts_S2048_S1x2048 (0 : Fin 1) j
  have hpost : wPost m c = fun j => ((m ((c : Thread nD τ).loc main_arg3)) : S2048.Idx → EReal) (ix1 j) :=
    funext fun j => shapeCast_a_1a_apply _ shapeCasts_S2048_S1x2048 (0 : Fin 1) j
  rw [result_eq, hin, hpost,
    layer_pad (X m c) _ _ (Wq m c) (Wo m c) (WgP m c) (WuP m c) (WdP m c) _ _ _
      (WgP_inside m c) (WuP_inside m c) (WdP_inside m c) (WdP_zero m c)]
  rfl

end Cert.KernelIdeal.Fold

end
-- ==== Proof.KernelResult.lean ====
/-
  The kernel program's run with its result read: every weakly fair execution terminates without a fault, the result
  buffer ends holding the layer of the arguments reshaped to [2, 2048, 2048], and the arguments end as launched.
-/
import proofs.«177261_j1571958030520_2_alg».proof.Proof.KernelRun
import proofs.«177261_j1571958030520_2_alg».proof.Proof.KernelValue

set_option maxRecDepth 16384

noncomputable section

open Idealize.ShloMosaic Idealize.ShloMosaic.TcCoe Idealize.SL.Sem

namespace Cert.KernelIdeal.Fold

open Cert.KernelIdeal Cert.KernelIdeal.Gen Idealize.ShloMosaic.ValueIdx Cert.Layer

variable (m : (ℓ : Loc nD τ sig) → Buf (Elt Ideal) ℓ) (ρ : Dev nD → PrngReg)

theorem kernel_run : θ_run (defs (F := Ideal)) (onTc (τ := τ) (main (F := Ideal))) ⟨m, fun _ => 0, ρ⟩ (fun r => ∀ c : Dev nD,
      r.2.mem ((c.tc : Thread nD τ).loc main_v17)
        = shapeCast S2x2048x2048 (layer (X m c) (fun j => ((m ((c : Thread nD τ).loc main_arg2)) : S2048.Idx → EReal) (ix1 j))
        (fun j => ((m ((c : Thread nD τ).loc main_arg3)) : S2048.Idx → EReal) (ix1 j))
        ((m ((c : Thread nD τ).loc main_arg4)) : S2048x2048.Idx → EReal) ((m ((c : Thread nD τ).loc main_arg5)) : S2048x2048.Idx → EReal)
        ((m ((c : Thread nD τ).loc main_arg6)) : S10944x2048.Idx → EReal) ((m ((c : Thread nD τ).loc main_arg7)) : S10944x2048.Idx → EReal)
        ((m ((c : Thread nD τ).loc main_arg8)) : S2048x10944.Idx → EReal)) shapeCasts_S4096x2048_S2x2048x2048
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c => ⟨(h c).1.trans (kernel_value m ρ c), (h c).2⟩) (run_result m ρ)

end Cert.KernelIdeal.Fold

end
-- ==== Proof.RefValue.lean ====
/-
  The reference program's result as the layer of its arguments.

  Stage by stage: the host spells a row's normalization as square, sum over the lanes, divide by 2048, add eps, rsqrt,
  multiply, multiply by the weights (`host_norm`); a projection as a dot_general contracting the lanes of both operands
  (`hostdot_mmT`); silu(g) as g * (1 / (1 + exp(-g))), which is g * logistic(g); and each residual as
  x + (...) where the layer is written (...) + x, equal because addition of extended reals commutes.
-/
import proofs.«177261_j1571958030520_2_alg».proof.Proof.Gen.ReferenceIdeal.Read
import proofs.«177261_j1571958030520_2_alg».proof.Proof.Spec
import proofs.«177261_j1571958030520_2_alg».proof.Proof.LibLanes
import proofs.«177261_j1571958030520_2_alg».proof.Proof.LibLayout
import Idealize.ShloMosaic.Lib.IdealHost

noncomputable section

namespace Cert.ReferenceIdeal.RefValue

open Cert.ReferenceIdeal Cert.ReferenceIdeal.Gen Cert.ReferenceIdeal.Read Idealize.ShloMosaic Idealize.ShloMosaic.ValueIdx
open Cert.Layer Cert.LibLanes
open scoped BigOperators

/-- The host's row normalization of a [4096, 2048] array is `rmsNorm`. -/
theorem host_norm (y : FVec Ideal S4096x2048 .f32) (w : FVec Ideal S2048 .f32) :
    mulf (mulf y (broadcastInDim S4096x2048 ![0, 1] bcast_S4096x1_S4096x2048_0_1
        (Host.rsqrt (addf (Host.divf (broadcastInDim S4096x1 ![0] bcast_S4096_S4096x1_0
            (Host.reduceAdd (mulf y y) (constant (F := Ideal) S_ .f32 0x00000000#32) reducesTo_S4096x2048_S4096_d1 h_S_))
          (broadcastInDim S4096x1 ![] bcast_S_S4096x1 (constant (F := Ideal) S_ .f32 0x45000000#32)))
          (broadcastInDim S4096x1 ![] bcast_S_S4096x1 (constant (F := Ideal) S_ .f32 0x358637BD#32))))))
      (broadcastInDim S4096x2048 ![0, 1] bcast_S1x2048_S4096x2048_0_1 (broadcastInDim S1x2048 ![1] bcast_S2048_S1x2048_1 w))
    = rmsNorm y (fun j => w (ix1 j)) := by
  funext i
  obtain ⟨p, q, rfl⟩ : ∃ (p : Fin 4096) (q : Fin 2048), i = ix2 p q := ⟨i 0, i 1, eq_ix2 i⟩
  have hb1 : ∀ v : FVec Ideal S4096x1 .f32,
      broadcastInDim (s := S4096x1) S4096x2048 ![0, 1] bcast_S4096x1_S4096x2048_0_1 v (ix2 p q) = v (ix2 p (0 : Fin 1)) := fun v =>
    broadcastInDim_apply (s := S4096x1) (t := S4096x2048) ![0, 1] bcast_S4096x1_S4096x2048_0_1 v (ix2 p q) (ix2 p (0 : Fin 1)) (fun a => match a with
      | ⟨0, _⟩ => by show p.val = if (4096 : Nat) = 1 then 0 else p.val; rw [if_neg (by decide)]
      | ⟨1, _⟩ => by show 0 = if (1 : Nat) = 1 then 0 else q.val; rw [if_pos rfl])
  have hb2 : ∀ v : FVec Ideal S4096 .f32,
      broadcastInDim (s := S4096) S4096x1 ![0] bcast_S4096_S4096x1_0 v (ix2 p (0 : Fin 1)) = v (ix1 p) := fun v =>
    broadcastInDim_apply (s := S4096) (t := S4096x1) ![0] bcast_S4096_S4096x1_0 v (ix2 p (0 : Fin 1)) (ix1 p) (fun a => match a with
      | ⟨0, _⟩ => by show p.val = if (4096 : Nat) = 1 then 0 else p.val; rw [if_neg (by decide)])
  have hb3 : ∀ v : FVec Ideal S_ .f32,
      broadcastInDim (s := S_) S4096x1 ![] bcast_S_S4096x1 v (ix2 p (0 : Fin 1)) = v ix0 := fun v =>
    broadcastInDim_apply (s := S_) (t := S4096x1) ![] bcast_S_S4096x1 v (ix2 p (0 : Fin 1)) ix0 (fun a => a.elim0)
  have hb4 : broadcastInDim (s := S1x2048) S4096x2048 ![0, 1] bcast_S1x2048_S4096x2048_0_1
        (broadcastInDim (s := S2048) S1x2048 ![1] bcast_S2048_S1x2048_1 w) (ix2 p q) = w (ix1 q) :=
    (broadcastInDim_apply (s := S1x2048) (t := S4096x2048) ![0, 1] bcast_S1x2048_S4096x2048_0_1 (broadcastInDim S1x2048 ![1] bcast_S2048_S1x2048_1 w) (ix2 p q) (ix2 (0 : Fin 1) q) (fun a => match a with
      | ⟨0, _⟩ => by show 0 = if (1 : Nat) = 1 then 0 else p.val; rw [if_pos rfl]
      | ⟨1, _⟩ => by show q.val = if (2048 : Nat) = 1 then 0 else q.val; rw [if_neg (by decide)])).trans
    (broadcastInDim_apply (s := S2048) (t := S1x2048) ![1] bcast_S2048_S1x2048_1 w (ix2 (0 : Fin 1) q) (ix1 q) (fun a => match a with
      | ⟨0, _⟩ => by show q.val = if (2048 : Nat) = 1 then 0 else q.val; rw [if_neg (by decide)]))
  have hsum : Host.reduceAdd (mulf y y) (constant (F := Ideal) S_ .f32 0x00000000#32) reducesTo_S4096x2048_S4096_d1 h_S_ (ix1 p)
      = ∑ k : Fin 2048, y (ix2 p k) * y (ix2 p k) := by
    simp only [Host.reduceAdd, Ideal.hostReduceAdd_def]
    rw [Ideal.hostReduceAdd_single reducesTo_S4096x2048_S4096_d1 (by decide)]
    show Ideal.ofBits .f32 0x00000000#32 + _ = _
    rw [Ideal.ofBits_zero_f32, zero_add]
    exact Finset.sum_congr rfl fun k _ => congrArg (mulf y y) (Cert.LibLayout.lift_row _ p k)
  show y (ix2 p q) * (broadcastInDim (s := S4096x1) S4096x2048 ![0, 1] bcast_S4096x1_S4096x2048_0_1 _ (ix2 p q))
      * (broadcastInDim (s := S1x2048) S4096x2048 ![0, 1] bcast_S1x2048_S4096x2048_0_1 _ (ix2 p q)) = _
  rw [hb1, hb4]
  show y (ix2 p q) * Ideal.rsqrt (Ideal.div (broadcastInDim (s := S4096) S4096x1 ![0] bcast_S4096_S4096x1_0 _ (ix2 p (0 : Fin 1)))
        (broadcastInDim (s := S_) S4096x1 ![] bcast_S_S4096x1 (constant (F := Ideal) S_ .f32 0x45000000#32) (ix2 p (0 : Fin 1)))
      + broadcastInDim (s := S_) S4096x1 ![] bcast_S_S4096x1 (constant (F := Ideal) S_ .f32 0x358637BD#32) (ix2 p (0 : Fin 1))) * w (ix1 q) = _
  rw [hb2, hb3, hb3, hsum]
  rfl

/-- The host's dot_general contracting the lanes of both operands is `mmT`. -/
theorem hostdot_mmT {R K N : ℕ} (d : DotDims ⟨2, ![R, K]⟩ ⟨2, ![N, K]⟩ ⟨2, ![R, N]⟩)
    (hrank : d.contr.rank = 1) (hsize : d.contr.size ⟨0, by omega⟩ = K)
    (hl0 : ∀ (i : (⟨2, ![R, N]⟩ : Shape).Idx) (s : d.contr.Idx), (d.lhsIdx i s 0).val = (i 0).val)
    (hl1 : ∀ (i : (⟨2, ![R, N]⟩ : Shape).Idx) (s : d.contr.Idx), (d.lhsIdx i s 1).val = (s ⟨0, by omega⟩).val)
    (hr0 : ∀ (i : (⟨2, ![R, N]⟩ : Shape).Idx) (s : d.contr.Idx), (d.rhsIdx i s 0).val = (i 1).val)
    (hr1 : ∀ (i : (⟨2, ![R, N]⟩ : Shape).Idx) (s : d.contr.Idx), (d.rhsIdx i s 1).val = (s ⟨0, by omega⟩).val)
    (l : FVec Ideal ⟨2, ![R, K]⟩ .f32) (r : FVec Ideal ⟨2, ![N, K]⟩ .f32) :
    Host.dotGeneral d none l r = mmT l r := by
  funext i
  obtain ⟨p, q, rfl⟩ : ∃ (p : Fin R) (q : Fin N), i = ix2 p q := ⟨i 0, i 1, eq_ix2 i⟩
  exact hostdot_lanes d hrank hsize hl0 hl1 hr0 hr1 l r p q

/-! ## The reference, stage by stage -/

variable (x0 : (⟨S2x2048x2048, .f32⟩ : BufTy).Contents (Elt Ideal)) (x2 x3 : (⟨S2048, .f32⟩ : BufTy).Contents (Elt Ideal))
  (x4 x5 : (⟨S2048x2048, .f32⟩ : BufTy).Contents (Elt Ideal)) (x6 x7 : (⟨S10944x2048, .f32⟩ : BufTy).Contents (Elt Ideal))
  (x8 : (⟨S2048x10944, .f32⟩ : BufTy).Contents (Elt Ideal))

/-- The first normalization. -/
theorem s13 : val_main_v13 (F := Ideal) x0 x2 = rmsNorm (val_main_v0 (F := Ideal) x0) (fun j => x2 (ix1 j)) := by
  unfold val_main_v13 val_main_v12 val_main_v11 val_main_v10 val_main_v9 val_main_v8 val_main_v7 val_main_v6 val_main_v5
    val_main_v4 val_main_v3 val_main_v2 val_main_v1 val_main_cst val_main_cst_0 val_main_cst_1
  exact host_norm _ _

/-- The query projection. -/
theorem s14 : val_main_v14 (F := Ideal) x0 x2 x4 = mmT (rmsNorm (val_main_v0 (F := Ideal) x0) (fun j => x2 (ix1 j))) x4 := by
  unfold val_main_v14
  rw [hostdot_mmT _ rfl rfl lhs_main_v14_0 lhs_main_v14_1 rhs_main_v14_0 rhs_main_v14_1, s13]

/-- The output projection. -/
theorem s15 : val_main_v15 (F := Ideal) x0 x2 x4 x5
    = mmT (mmT (rmsNorm (val_main_v0 (F := Ideal) x0) (fun j => x2 (ix1 j))) x4) x5 := by
  unfold val_main_v15
  rw [hostdot_mmT _ rfl rfl lhs_main_v15_0 lhs_main_v15_1 rhs_main_v15_0 rhs_main_v15_1, s14]

/-- The residual stream: the host adds the projection to the activations, the layer the activations to the projection. -/
theorem s16 : val_main_v16 (F := Ideal) x0 x2 x4 x5 = Layer.hidden (val_main_v0 (F := Ideal) x0) (fun j => x2 (ix1 j)) x4 x5 := by
  unfold val_main_v16 Layer.hidden addM
  rw [s15]
  funext i
  exact add_comm _ _

/-- The second normalization. -/
theorem s29 : val_main_v29 (F := Ideal) x0 x2 x3 x4 x5
    = rmsNorm (Layer.hidden (val_main_v0 (F := Ideal) x0) (fun j => x2 (ix1 j)) x4 x5) (fun j => x3 (ix1 j)) := by
  unfold val_main_v29 val_main_v28 val_main_v27 val_main_v26 val_main_v25 val_main_v24 val_main_v23 val_main_v22 val_main_v21
    val_main_v20 val_main_v19 val_main_v18 val_main_v17 val_main_cst_2 val_main_cst_3 val_main_cst_4
  refine (host_norm _ _).trans ?_
  rw [s16]

/-- The gate and up projections. -/
theorem s30 : val_main_v30 (F := Ideal) x0 x2 x3 x4 x5 x6
    = mmT (rmsNorm (Layer.hidden (val_main_v0 (F := Ideal) x0) (fun j => x2 (ix1 j)) x4 x5) (fun j => x3 (ix1 j))) x6 := by
  unfold val_main_v30
  rw [hostdot_mmT _ rfl rfl lhs_main_v30_0 lhs_main_v30_1 rhs_main_v30_0 rhs_main_v30_1, s29]
theorem s32 : val_main_v32 (F := Ideal) x0 x2 x3 x4 x5 x7
    = mmT (rmsNorm (Layer.hidden (val_main_v0 (F := Ideal) x0) (fun j => x2 (ix1 j)) x4 x5) (fun j => x3 (ix1 j))) x7 := by
  unfold val_main_v32
  rw [hostdot_mmT _ rfl rfl lhs_main_v32_0 lhs_main_v32_1 rhs_main_v32_0 rhs_main_v32_1, s29]

/-- The gated product: the host's g * (1 / (1 + exp(-g))) is g * logistic(g). -/
theorem s33 : val_main_v33 (F := Ideal) x0 x2 x3 x4 x5 x6 x7
    = gateUp (rmsNorm (Layer.hidden (val_main_v0 (F := Ideal) x0) (fun j => x2 (ix1 j)) x4 x5) (fun j => x3 (ix1 j))) x6 x7 := by
  funext i
  rw [val_main_v33_apply, val_main_v31_apply, val_main_call0_v5_apply, val_main_call0_v4_apply, val_main_call0_cst_0_apply,
    val_main_call0_v3_apply, val_main_call0_v2_apply, val_main_call0_cst_apply, val_main_call0_v1_apply,
    val_main_call0_v0_apply, s30, s32]
  show mmT _ x6 i * Ideal.div (Ideal.ofBits .f32 0x3F800000#32) (Ideal.ofBits .f32 0x3F800000#32 + Ideal.exp (-(mmT _ x6 i)))
      * mmT _ x7 i = _
  rw [Ideal.ofBits_one_f32]
  rfl

/-- The down projection. -/
theorem s34 : val_main_v34 (F := Ideal) x0 x2 x3 x4 x5 x6 x7 x8
    = mmT (gateUp (rmsNorm (Layer.hidden (val_main_v0 (F := Ideal) x0) (fun j => x2 (ix1 j)) x4 x5) (fun j => x3 (ix1 j))) x6 x7) x8 := by
  unfold val_main_v34
  rw [hostdot_mmT _ rfl rfl lhs_main_v34_0 lhs_main_v34_1 rhs_main_v34_0 rhs_main_v34_1, s33]

/-- The layer. -/
theorem s35 : val_main_v35 (F := Ideal) x0 x2 x3 x4 x5 x6 x7 x8
    = layer (val_main_v0 (F := Ideal) x0) (fun j => x2 (ix1 j)) (fun j => x3 (ix1 j)) x4 x5 x6 x7 x8 := by
  unfold val_main_v35 layer addM
  rw [s34, s16]
  funext i
  exact add_comm _ _

/-- THE REFERENCE PROGRAM'S RESULT: the layer of the arguments, reshaped to [2, 2048, 2048]. -/
theorem reference_value (m : (ℓ : Loc nD τ sig) → Buf (Elt Ideal) ℓ) (c : Dev nD) :
    Cert.ReferenceIdeal.Value.res_main_v36 m c
      = shapeCast S2x2048x2048 (layer
          (shapeCast S4096x2048 (m ((c.tc : Thread nD τ).loc main_arg0)) shapeCasts_S2x2048x2048_S4096x2048)
          (fun j => (m ((c.tc : Thread nD τ).loc main_arg2) : S2048.Idx → EReal) (ix1 j))
          (fun j => (m ((c.tc : Thread nD τ).loc main_arg3) : S2048.Idx → EReal) (ix1 j))
          (m ((c.tc : Thread nD τ).loc main_arg4) : S2048x2048.Idx → EReal)
          (m ((c.tc : Thread nD τ).loc main_arg5) : S2048x2048.Idx → EReal)
          (m ((c.tc : Thread nD τ).loc main_arg6) : S10944x2048.Idx → EReal)
          (m ((c.tc : Thread nD τ).loc main_arg7) : S10944x2048.Idx → EReal)
          (m ((c.tc : Thread nD τ).loc main_arg8) : S2048x10944.Idx → EReal)) shapeCasts_S4096x2048_S2x2048x2048 := by
  rw [val_main_v36_eq]
  unfold val_main_v36
  rw [s35]
  rfl

end Cert.ReferenceIdeal.RefValue

end
-- ==== Proof.lean ====
/-
  The kernel program and the reference compute one function on extended reals: a decoder layer

      hidden = (norm(x, w_in) * Wq^T) * Wo^T + x
      out    = (silu(h * Wg^T) .* (h * Wu^T)) * Wd^T + hidden,      h = norm(hidden, w_post),

  where norm scales each row of 2048 entries by rsqrt(mean of squares + eps) and by the weight vector, A * B^T contracts
  the lanes of both matrices, and silu(g) = g * logistic(g) (`Cert.Layer.layer`).

  The kernel program computes it in six tiled calls (row tiles of 256 or 512, weight slabs of 1024 or 256 rows) on
  operands rounded to bf16 — the identity on extended reals — with the intermediate width padded from 10944 to 11264 by
  zeros. Each call's result array is one whole-array function of its operand arrays, whatever the tiling
  (`Regions.final0` … `final5`); following the arrays from call to call gives the layer over the padded weights
  (`Fold.result_eq`), and the padding is exact because every appended term of the last contraction is a product with a
  zero weight (`Cert.Layer.layer_pad`: x * 0 = 0 for every extended real x). The reference spells the same stages with host
  operations (`RefValue.reference_value`): a sum as 0 + sum, silu(g) as g * (1 / (1 + exp(-g))), each residual with the
  summands in the other order. No step uses that an entry is finite: only commutativity of addition, reindexing of finite
  sums, and x * 0 = 0.

  The three frames are the generated runs; the kernel program's frame is read once more with the result buffer named
  (`Gen.run_result`, `Fold.kernel_run`). Nothing was rewritten by the idealization, so the preservation conjunct is trivial.
-/
import proofs.«177261_j1571958030520_2_alg».proof.Defs
import proofs.«177261_j1571958030520_2_alg».proof.Proof.Gen.Kernel
import proofs.«177261_j1571958030520_2_alg».proof.Proof.Gen.Kernel.Skeleton
import proofs.«177261_j1571958030520_2_alg».proof.Proof.Gen.Kernel.Launch
import proofs.«177261_j1571958030520_2_alg».proof.Proof.Gen.Kernel.Points
import proofs.«177261_j1571958030520_2_alg».proof.Proof.Gen.Kernel.Frame
import proofs.«177261_j1571958030520_2_alg».proof.Proof.Gen.KernelIdeal
import proofs.«177261_j1571958030520_2_alg».proof.Proof.Gen.KernelIdeal.Skeleton
import proofs.«177261_j1571958030520_2_alg».proof.Proof.Gen.KernelIdeal.Launch
import proofs.«177261_j1571958030520_2_alg».proof.Proof.Gen.KernelIdeal.Points
import proofs.«177261_j1571958030520_2_alg».proof.Proof.Gen.KernelIdeal.Frame
import proofs.«177261_j1571958030520_2_alg».proof.Proof.Gen.ReferenceIdeal
import proofs.«177261_j1571958030520_2_alg».proof.Proof.Gen.ReferenceIdeal.Run
import proofs.«177261_j1571958030520_2_alg».proof.Proof.Gen.ReferenceIdeal.Read
import proofs.«177261_j1571958030520_2_alg».proof.Proof.Gen.Pre_finite_inputs
import proofs.«177261_j1571958030520_2_alg».proof.Proof.KernelRun
import proofs.«177261_j1571958030520_2_alg».proof.Proof.KernelValue
import proofs.«177261_j1571958030520_2_alg».proof.Proof.KernelResult
import proofs.«177261_j1571958030520_2_alg».proof.Proof.RefValue
import Idealize.ShloMosaic.Adequacy
import Idealize.ShloMosaic.Init

set_option maxRecDepth 16384

noncomputable section

namespace Cert.Proof

open Idealize.ShloMosaic Idealize.ShloMosaic.TcCoe Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both programs end with the layer of the arguments in their result buffers. -/
theorem algebraic : Cert.algebraic_KernelIdeal_ReferenceIdeal := by
  intro m ρ m' ρ' _ hagree
  refine ⟨_, Cert.KernelIdeal.Fold.kernel_run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.RefValue.reference_value]
  obtain ⟨h0, -, h2, h3, h4, h5, h6, h7, h8⟩ := hagree c
  rw [h0, h2, h3, h4, h5, h6, h7, h8]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
